-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x4 : Shape := ⟨3, ![512, 512, 4]⟩
abbrev S8388608x2 : Shape := ⟨2, ![8388608, 2]⟩
abbrev S_ : Shape := ⟨0, ![]⟩

class Facts : Prop where
  bcast_S_S512x512x4 : S_.BroadcastsInDim S512x512x4 (![] : Fin 0 → Fin S512x512x4.rank)
  reducesTo_S512x512x4_S_d0_1_2 : S512x512x4.ReducesTo [0, 1, 2] S_
  h_S_ : 0 < S_.numel
  bcast_S_S8388608x2 : S_.BroadcastsInDim S8388608x2 (![] : Fin 0 → Fin S8388608x2.rank)
  reducesTo_S8388608x2_S_d0_1 : S8388608x2.ReducesTo [0, 1] S_

variable [Facts]

def fn {F : FTy → Type} [FloatOps F] (main_arg0 : FVec F S512x512x4 .f32) (main_arg1 : FVec F S8388608x2 .f32) : IVec S_ 1 :=
  let main_v0 : FVec F S512x512x4 .f32 := Host.absf main_arg0
  let main_cst : FVec F S_ .f32 := constant S_ .f32 0x7F800000#32
  let main_v1 : FVec F S512x512x4 .f32 := broadcastInDim S512x512x4 ![] bcast_S_S512x512x4 main_cst
  let main_v2 : IVec S512x512x4 1 := cmpf .olt main_v0 main_v1
  let main_c : IVec S_ 1 := constantI S_ 1 1#1
  let main_v3 : IVec S_ 1 := (fun x v => Host.reduce IntOp.andi x v reducesTo_S512x512x4_S_d0_1_2 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  main_v8
-- ==== Kernel.lean ====
abbrev S512x512x4 : Shape := ⟨3, ![512, 512, 4]⟩
abbrev S8388608x2 : Shape := ⟨2, ![8388608, 2]⟩
abbrev S4x512x512 : Shape := ⟨3, ![4, 512, 512]⟩
abbrev S_ : Shape := ⟨0, ![]⟩
abbrev S8389632x2 : Shape := ⟨2, ![8389632, 2]⟩
abbrev S8389632x4 : Shape := ⟨2, ![8389632, 4]⟩
abbrev S3072x2 : Shape := ⟨2, ![3072, 2]⟩
abbrev S3072x4 : Shape := ⟨2, ![3072, 4]⟩
abbrev S3072x1 : Shape := ⟨2, ![3072, 1]⟩
abbrev S3072 : Shape := ⟨1, ![3072]⟩
abbrev S3072x512 : Shape := ⟨2, ![3072, 512]⟩
abbrev S1x512x512 : Shape := ⟨3, ![1, 512, 512]⟩
abbrev S512x512 : Shape := ⟨2, ![512, 512]⟩
abbrev S8388608x4 : Shape := ⟨2, ![8388608, 4]⟩

abbrev nBuf : Space → Nat
  | .hbm => 9
  | .vmem => 5
  | .smem => 0
  | _ => 0

abbrev bufTy : (tb : Table) → Fin (tcTables nBuf tb) → BufTy
  | .hbm, ⟨0, _⟩ => ⟨S512x512x4, .f32⟩
  | .hbm, ⟨1, _⟩ => ⟨S8388608x2, .f32⟩
  | .hbm, ⟨2, _⟩ => ⟨S4x512x512, .f32⟩
  | .hbm, ⟨3, _⟩ => ⟨S4x512x512, .bf16⟩
  | .hbm, ⟨4, _⟩ => ⟨S_, .i32⟩
  | .hbm, ⟨5, _⟩ => ⟨S_, .f32⟩
  | .hbm, ⟨6, _⟩ => ⟨S8389632x2, .f32⟩
  | .hbm, ⟨7, _⟩ => ⟨S8389632x4, .f32⟩
  | .hbm, ⟨8, _⟩ => ⟨S8388608x4, .f32⟩
  | .local _ .vmem, ⟨0, _⟩ => ⟨S4x512x512, .bf16⟩
  | .local _ .vmem, ⟨1, _⟩ => ⟨S3072x2, .f32⟩
  | .local _ .vmem, ⟨2, _⟩ => ⟨S3072x2, .f32⟩
  | .local _ .vmem, ⟨3, _⟩ => ⟨S3072x4, .f32⟩
  | .local _ .vmem, ⟨4, _⟩ => ⟨S3072x4, .f32⟩
  | _, _ => ⟨S512x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2731], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512x4_S4x512x512_2_0_1 : S512x512x4.Transposes [2, 0, 1] S4x512x512
  bitsLt_bf16_f32 : FTy.bits .bf16 < FTy.bits .f32
  pads_S8388608x2_S8389632x2_010240_000 : S8388608x2.Pads (![0, 0] : Fin 2 → Nat) ![1024, 0] ![0, 0] S8389632x2
  h_S_ : 0 < S_.numel
  inb_S3072x2_S3072x2_0_0 : ∀ a, (![0, 0] : Fin 2 → Nat) a + S3072x2.size a ≤ S3072x2.size a
  h_S3072x2 : 0 < S3072x2.numel
  shapeCasts_S3072x2_S3072x2 : S3072x2.ShapeCasts S3072x2
  slices_S3072x2_o0_0_S3072x1 : S3072x2.Slices ![0, 0] S3072x1
  shapeCasts_S3072x1_S3072 : S3072x1.ShapeCasts S3072
  slices_S3072x2_o0_1_S3072x1 : S3072x2.Slices ![0, 1] S3072x1
  shapeCasts_S3072_S3072x1 : S3072.ShapeCasts S3072x1
  iota_S3072x512_d1_w32 : S3072x512.Iotas .tc 32 [1]
  broadcasts_S3072x1_S3072x512 : S3072x1.Broadcasts S3072x512
  shapeCasts_S3072x1_S3072x1 : S3072x1.ShapeCasts S3072x1
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  reduces_S3072x512_S3072 : S3072x512.Reduces [1] S3072
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  concatenates_S3072x1_S3072x1_S3072x1_S3072x1_S3072x4_d1 : Shape.Concatenates [S3072x1, S3072x1, S3072x1, S3072x1] S3072x4 1
  inb_S3072x4_S3072x4_0_0 : ∀ a, (![0, 0] : Fin 2 → Nat) a + S3072x4.size a ≤ S3072x4.size a
  h_S3072x4 : 0 < S3072x4.numel
  slices_S8389632x4_S8388608x4_0_0 : S8389632x4.Slices ![0, 0] S8388608x4
  dot_S3072x512_S512x512_S3072x512_1_0_0_1_n_n_wf : DotDims.WF S3072x512 S512x512 S3072x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x512x512.size a
  hwx0_0 : ∀ i : grid0.Coords, EltTy.bits .bf16 = 32 ∨ (Rect.block (s := S4x512x512) S4x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x2.size a ≤ S8389632x2.size a
  hwx0_1 : ∀ i : grid0.Coords, EltTy.bits .f32 = 32 ∨ (Rect.block (s := S8389632x2) S3072x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x4.size a ≤ S8389632x4.size a
  hwx0_2 : ∀ i : grid0.Coords, EltTy.bits .f32 = 32 ∨ (Rect.block (s := S8389632x4) S3072x4.size (cc0_transform_2 i) (hinb0_2 i)).WholeWords (EltTy.packing .f32)

variable [Facts₀]

def dot_S3072x512_S512x512_S3072x512_1_0_0_1_n_n : DotDims S3072x512 S512x512 S3072x512 where
  lhsContracting := [1]
  rhsContracting := [0]
  lhsNonContracting := [0]
  rhsNonContracting := [1]
  lhsBatch := []
  rhsBatch := []
  wf := dot_S3072x512_S512x512_S3072x512_1_0_0_1_n_n_wf

abbrev win0_0 : Pipeline.Window sig grid0 :=
  Pipeline.Window.ofSpec (Memref.whole main_v1) S4x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3072x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512x4 : Shape := ⟨3, ![512, 512, 4]⟩
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩
abbrev S8388608x4 : Shape := ⟨2, ![8388608, 4]⟩

abbrev nBuf : Space → Nat
  | .hbm => 141
  | .vmem => 0
  | .smem => 0
  | _ => 0

abbrev hbmTy0_0 (i : Nat) : BufTy := match i % 128 with
  | 0 => ⟨S512x512x4, .f32⟩
  | 1 => ⟨S8388608x2, .f32⟩
  | 2 => ⟨S8388608x1, .f32⟩
  | 3 => ⟨S8388608, .f32⟩
  | 4 => ⟨S8388608x1, .f32⟩
  | 5 => ⟨S8388608, .f32⟩
  | 6 => ⟨S8388608, .f32⟩
  | 7 => ⟨S_, .i32⟩
  | 8 => ⟨S_, .i32⟩
  | 9 => ⟨S_, .f32⟩
  | 10 => ⟨S8388608, .f32⟩
  | 11 => ⟨S8388608, .f32⟩
  | 12 => ⟨S_, .f32⟩
  | 13 => ⟨S8388608, .f32⟩
  | 14 => ⟨S8388608, .f32⟩
  | 15 => ⟨S8388608, .i32⟩
  | 16 => ⟨S8388608, .f32⟩
  | 17 => ⟨S_, .i32⟩
  | 18 => ⟨S_, .i32⟩
  | 19 => ⟨S_, .f32⟩
  | 20 => ⟨S8388608, .f32⟩
  | 21 => ⟨S8388608, .f32⟩
  | 22 => ⟨S_, .f32⟩
  | 23 => ⟨S8388608, .f32⟩
  | 24 => ⟨S8388608, .f32⟩
  | 25 => ⟨S8388608, .i32⟩
  | 26 => ⟨S_, .i32⟩
  | 27 => ⟨S8388608, .i32⟩
  | 28 => ⟨S8388608, .i32⟩
  | 29 => ⟨S_, .i32⟩
  | 30 => ⟨S8388608, .i32⟩
  | 31 => ⟨S8388608, .i32⟩
  | 32 => ⟨S8388608, .f32⟩
  | 33 => ⟨S8388608, .f32⟩
  | 34 => ⟨S8388608x1, .f32⟩
  | 35 => ⟨S8388608, .f32⟩
  | 36 => ⟨S8388608, .f32⟩
  | 37 => ⟨S8388608x1, .f32⟩
  | 38 => ⟨S_, .i32⟩
  | 39 => ⟨S8388608, .i32⟩
  | 40 => ⟨S8388608, .i1⟩
  | 41 => ⟨S_, .i32⟩
  | 42 => ⟨S8388608, .i32⟩
  | 43 => ⟨S8388608, .i32⟩
  | 44 => ⟨S8388608, .i32⟩
  | 45 => ⟨S_, .i32⟩
  | 46 => ⟨S8388608, .i32⟩
  | 47 => ⟨S8388608, .i1⟩
  | 48 => ⟨S_, .i32⟩
  | 49 => ⟨S8388608, .i32⟩
  | 50 => ⟨S8388608, .i32⟩
  | 51 => ⟨S8388608, .i32⟩
  | 52 => ⟨S8388608x1, .i32⟩
  | 53 => ⟨S8388608x1, .i32⟩
  | 54 => ⟨S8388608x2, .i32⟩
  | 55 => ⟨S8388608x4, .f32⟩
  | 56 => ⟨S_, .i32⟩
  | 57 => ⟨S8388608, .i32⟩
  | 58 => ⟨S8388608, .i1⟩
  | 59 => ⟨S_, .i32⟩
  | 60 => ⟨S8388608, .i32⟩
  | 61 => ⟨S8388608, .i32⟩
  | 62 => ⟨S8388608, .i32⟩
  | 63 => ⟨S_, .i32⟩
  | 64 => ⟨S8388608, .i32⟩
  | 65 => ⟨S8388608, .i1⟩
  | 66 => ⟨S_, .i32⟩
  | 67 => ⟨S8388608, .i32⟩
  | 68 => ⟨S8388608, .i32⟩
  | 69 => ⟨S8388608, .i32⟩
  | 70 => ⟨S8388608x1, .i32⟩
  | 71 => ⟨S8388608x1, .i32⟩
  | 72 => ⟨S8388608x2, .i32⟩
  | 73 => ⟨S8388608x4, .f32⟩
  | 74 => ⟨S_, .i32⟩
  | 75 => ⟨S8388608, .i32⟩
  | 76 => ⟨S8388608, .i1⟩
  | 77 => ⟨S_, .i32⟩
  | 78 => ⟨S8388608, .i32⟩
  | 79 => ⟨S8388608, .i32⟩
  | 80 => ⟨S8388608, .i32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S8388608x1, .i32⟩
  | 89 => ⟨S8388608x1, .i32⟩
  | 90 => ⟨S8388608x2, .i32⟩
  | 91 => ⟨S8388608x4, .f32⟩
  | 92 => ⟨S_, .i32⟩
  | 93 => ⟨S8388608, .i32⟩
  | 94 => ⟨S8388608, .i1⟩
  | 95 => ⟨S_, .i32⟩
  | 96 => ⟨S8388608, .i32⟩
  | 97 => ⟨S8388608, .i32⟩
  | 98 => ⟨S8388608, .i32⟩
  | 99 => ⟨S_, .i32⟩
  | 100 => ⟨S8388608, .i32⟩
  | 101 => ⟨S8388608, .i1⟩
  | 102 => ⟨S_, .i32⟩
  | 103 => ⟨S8388608, .i32⟩
  | 104 => ⟨S8388608, .i32⟩
  | 105 => ⟨S8388608, .i32⟩
  | 106 => ⟨S8388608x1, .i32⟩
  | 107 => ⟨S8388608x1, .i32⟩
  | 108 => ⟨S8388608x2, .i32⟩
  | 109 => ⟨S8388608x4, .f32⟩
  | 110 => ⟨S_, .f32⟩
  | 111 => ⟨S8388608x1, .f32⟩
  | 112 => ⟨S8388608x1, .f32⟩
  | 113 => ⟨S8388608x4, .f32⟩
  | 114 => ⟨S8388608x4, .f32⟩
  | 115 => ⟨S_, .f32⟩
  | 116 => ⟨S8388608x1, .f32⟩
  | 117 => ⟨S8388608x1, .f32⟩
  | 118 => ⟨S8388608x4, .f32⟩
  | 119 => ⟨S8388608x4, .f32⟩
  | 120 => ⟨S_, .f32⟩
  | 121 => ⟨S8388608x1, .f32⟩
  | 122 => ⟨S8388608x1, .f32⟩
  | 123 => ⟨S8388608x4, .f32⟩
  | 124 => ⟨S8388608x4, .f32⟩
  | 125 => ⟨S8388608x4, .f32⟩
  | 126 => ⟨S8388608x4, .f32⟩
  | 127 => ⟨S8388608x4, .f32⟩
  | _ => ⟨S512x512x4, .f32⟩

abbrev hbmTy0_1 (i : Nat) : BufTy := match i % 128 with
  | 0 => ⟨S8388608x4, .f32⟩
  | 1 => ⟨S8388608x4, .f32⟩
  | 2 => ⟨S_, .f32⟩
  | 3 => ⟨S8388608x1, .f32⟩
  | 4 => ⟨S8388608x1, .f32⟩
  | 5 => ⟨S8388608x4, .f32⟩
  | 6 => ⟨S8388608x4, .f32⟩
  | 7 => ⟨S8388608x4, .f32⟩
  | 8 => ⟨S8388608x4, .f32⟩
  | 9 => ⟨S8388608x4, .f32⟩
  | 10 => ⟨S8388608x4, .f32⟩
  | 11 => ⟨S8388608x4, .f32⟩
  | 12 => ⟨S8388608x4, .f32⟩
  | _ => ⟨S512x512x4, .f32⟩

abbrev hbmTy (i : Nat) : BufTy := match i / 128 with
  | 0 => hbmTy0_0 i
  | 1 => hbmTy0_1 i
  | _ => ⟨S512x512x4, .f32⟩

abbrev bufTy : (tb : Table) → Fin (tcTables nBuf tb) → BufTy
  | .hbm, ⟨i, _⟩ => hbmTy i
  | _, _ => ⟨S512x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_17 : Ref sig .tc := ⟨.hbm, 92, rfl⟩
abbrev main_v62 : Ref sig .tc := ⟨.hbm, 93, rfl⟩
abbrev main_v63 : Ref sig .tc := ⟨.hbm, 94, rfl⟩
abbrev main_c_18 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_c_20 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S8388608x1 : S_.BroadcastsInDim S8388608x1 (![] : Fin 0 → Fin S8388608x1.rank)
  bcast_S8388608x1_S8388608x4_0_1 : S8388608x1.BroadcastsInDim S8388608x4 (![0, 1] : Fin 2 → Fin S8388608x4.rank)
  gather_S512x512x4_S8388608x2_S8388608x4_1_01_n_n_01_1_114_wf : GatherDims.WF S512x512x4 S8388608x2 S8388608x4 [1] [0, 1] [] [0, 1] [] 1 ![1, 1, 4]

variable [Facts₀]

def gather_S512x512x4_S8388608x2_S8388608x4_1_01_n_n_01_1_114 : GatherDims S512x512x4 S8388608x2 S8388608x4 where
  offsetDims := [1]
  collapsedSliceDims := [0, 1]
  operandBatchingDims := []
  startIndicesBatchingDims := []
  startIndexMap := [0, 1]
  indexVectorDim := 1
  sliceSizes := ![1, 1, 4]
  wf := gather_S512x512x4_S8388608x2_S8388608x4_1_01_n_n_01_1_114_wf

class Facts : Prop extends Facts₀ where

variable [Facts]
-- ==== Proof.Bilinear.lean ====
/-
  Bilinear sampling of a table at a point, on the extended reals.

  A sample coordinate `x` falls in the cell `⌊x⌋` kept inside `[0, 510]` (so that the cell and its upper
  neighbour are both rows of an axis of 512), at the offset `x - cell` inside it. The sample of a table `T`
  at `(x, y)` is the sum of the four corners of the cell, each weighted by the product of the two one-dimensional
  weights: `1 - offset` for the lower neighbour, `offset` for the upper one.

  The same number is obtained by contracting the table against two weight rows, each zero except at the
  cell (`1 - offset`) and its upper neighbour (`offset`): first along the rows, then along the columns. For real
  entries and real offsets the two arrangements agree by distributivity.
-/
import Idealize.ShloMosaic.PureOps.Ideal
import Idealize.ShloMosaic.Lib.ValueIdx

noncomputable section

namespace Cert.Bilinear

open Idealize.ShloMosaic Idealize.ShloMosaic.ValueIdx

/-- The cell of a sample coordinate, as a 32-bit word: `⌊x⌋` kept inside `[0, 510]`, rounded toward zero. -/
def cell (x : EReal) : BitVec 32 :=
  Ideal.fptosi 32 (min ((510 : ℝ) : EReal) (max (0 : EReal) (Ideal.liftRound Int.floor x)))

/-- The cell is one of `0, …, 510`, whatever the coordinate (an infinity goes to an end of the range). -/
theorem cell_small (x : EReal) : ∃ k : ℕ, k ≤ 510 ∧ cell x = BitVec.ofNat 32 k := by
  have key : ∀ n : ℤ, 0 ≤ n → n ≤ 510 →
      Ideal.fptosi 32 (((n : ℝ) : EReal)) = BitVec.ofNat 32 n.toNat := by
    intro n h0 h1
    have hfl : (if (0 : ℝ) ≤ (n : ℝ) then ⌊(n : ℝ)⌋ else ⌈(n : ℝ)⌉) = n := by
      rw [if_pos (by exact_mod_cast h0), Int.floor_intCast]
    unfold Ideal.fptosi
    rw [Ideal.toIntClamped_coe, hfl]
    have h2 : max (-((2 ^ (32 - 1) : ℕ) : ℤ)) (min (((2 ^ (32 - 1) : ℕ) : ℤ) - 1) n) = n := by
      norm_num; omega
    rw [h2]
    conv_lhs => rw [← Int.toNat_of_nonneg h0]
    exact BitVec.ofInt_natCast _ _
  induction x using EReal.rec with
  | bot =>
    refine ⟨0, by norm_num, ?_⟩
    unfold cell
    rw [Ideal.liftRound_bot, max_eq_left bot_le, min_eq_right (by exact_mod_cast (by norm_num : (0 : ℝ) ≤ 510))]
    have := key 0 le_rfl (by norm_num)
    simpa using this
  | top =>
    refine ⟨510, le_rfl, ?_⟩
    unfold cell
    rw [Ideal.liftRound_top, max_eq_right le_top, min_eq_left le_top]
    have := key 510 (by norm_num) le_rfl
    simpa using this
  | coe r =>
    refine ⟨(min 510 (max 0 ⌊r⌋)).toNat, by omega, ?_⟩
    unfold cell
    rw [Ideal.liftRound_coe]
    have e : min ((510 : ℝ) : EReal) (max (0 : EReal) (((⌊r⌋ : ℤ) : ℝ) : EReal))
        = (((min 510 (max 0 ⌊r⌋) : ℤ) : ℝ) : EReal) := by
      rw [← EReal.coe_zero, ← EReal.coe_strictMono.monotone.map_max, ← EReal.coe_strictMono.monotone.map_min]
      congr 1
      push_cast
      rfl
    rw [e]
    exact key _ (by omega) (by omega)

/-- The cell read back as a natural number is at most `510`. -/
theorem cell_toNat_le (x : EReal) : (cell x).toNat ≤ 510 := by
  obtain ⟨k, hk, e⟩ := cell_small x
  rw [e, BitVec.toNat_ofNat]
  omega

/-- The cell's row of an axis of 512, and its upper neighbour's. -/
def lo (x : EReal) : Fin 512 := ⟨(cell x).toNat, by have := cell_toNat_le x; omega⟩
def hi (x : EReal) : Fin 512 := ⟨(cell x).toNat + 1, by have := cell_toNat_le x; omega⟩

/-- The offset of the coordinate inside its cell. -/
def frac (x : EReal) : EReal := x - (((cell x).toInt : ℝ) : EReal)

/-- The sample of a table at `(x, y)`: the four corners of the cell, weighted. -/
def blend (T : Fin 512 → Fin 512 → EReal) (x y : EReal) : EReal :=
  T (lo x) (lo y) * (1 - frac x) * (1 - frac y) + T (lo x) (hi y) * (1 - frac x) * frac y
    + T (hi x) (lo y) * frac x * (1 - frac y) + T (hi x) (hi y) * frac x * frac y

/-- The whole result: entry `(n, f)` is feature `f` of the table sampled at the `n`-th location. -/
def G (A : (⟨3, ![512, 512, 4]⟩ : Shape).Idx → EReal) (P : (⟨2, ![8388608, 2]⟩ : Shape).Idx → EReal) :
    (⟨2, ![8388608, 4]⟩ : Shape).Idx → EReal :=
  fun i => blend (fun h w => A (ix3 h w (i 1))) (P (ix2 (i 0) (0 : Fin 2))) (P (ix2 (i 0) (1 : Fin 2)))

end Cert.Bilinear

end
-- ==== Proof.OneHot.lean ====
/-
  A weight row with two non-zero entries, contracted against a table.

  The row has `a` at the cell `k`, `b` at `k + 1` and zero elsewhere; its entry at position `h` is chosen by
  comparing the 32-bit word of `h` with the word of the cell and with that word plus one. Contracting such a row
  against any family `g` leaves `a · g k + b · g (k + 1)`: every other term is `0 · g h = 0`, on the extended reals
  too. Doing this along the rows of a table and then along its columns, with real entries and real weights, gives
  the four corners of the cell with the products of the weights: the bilinear sample.
-/
import proofs.«114739_j72816875536993_2_alg».proof.Proof.Bilinear

noncomputable section

namespace Cert.Bilinear

open Idealize.ShloMosaic

/-- A select on the bit of a word equality is the choice by that equality. -/
theorem select_eq_word (u v : BitVec 32) (a b : EReal) :
    Scalar.select (IntOp.cmpi .eq u v) a b = if u = v then a else b := by
  unfold Scalar.select IntOp.cmpi
  by_cases e : u = v
  · subst e; simp
  · have h : (u == v) = false := by simpa using e
    simp [h, e]

/-- The entry at position `h` of the weight row of the cell word `c`: `a` where `h` is the cell, `b` where it is
    the cell plus one, else zero. -/
def weight (c : BitVec 32) (a b : EReal) (h : ℕ) : EReal :=
  Scalar.select (IntOp.cmpi .eq (BitVec.ofNat 32 h) c) a
    (Scalar.select (IntOp.cmpi .eq (BitVec.ofNat 32 h) (IntOp.addi c 1#32)) b 0)

/-- Two small naturals have the same 32-bit word only when equal. -/
theorem word_inj (h k : ℕ) (hh : h < 4294967296) (hk : k < 4294967296) :
    BitVec.ofNat 32 h = BitVec.ofNat 32 k ↔ h = k := by
  constructor
  · intro e
    have := congrArg BitVec.toNat e
    rw [BitVec.toNat_ofNat, BitVec.toNat_ofNat] at this
    omega
  · rintro rfl; rfl

/-- The weight row of a cell `k ≤ 510`, position by position. -/
theorem weight_eq (k : ℕ) (hk : k ≤ 510) (a b : EReal) (h : ℕ) (hh : h < 512) :
    weight (BitVec.ofNat 32 k) a b h = if h = k then a else if h = k + 1 then b else 0 := by
  unfold weight
  rw [select_eq_word, select_eq_word]
  have e1 : IntOp.addi (BitVec.ofNat 32 k) 1#32 = BitVec.ofNat 32 (k + 1) := by
    unfold IntOp.addi
    rw [show (1#32 : BitVec 32) = BitVec.ofNat 32 1 from rfl, ← BitVec.ofNat_add]
  rw [e1]
  simp only [word_inj h k (by omega) (by omega), word_inj h (k + 1) (by omega) (by omega)]

/-- Contracting the weight row of the cell `k` against a family leaves the two neighbours' terms. -/
theorem contract (k : ℕ) (hk : k ≤ 510) (a b : EReal) (g : Fin 512 → EReal) :
    ∑ h : Fin 512, weight (BitVec.ofNat 32 k) a b h.val * g h
      = a * g ⟨k, by omega⟩ + b * g ⟨k + 1, by omega⟩ := by
  have e : ∀ h : Fin 512, weight (BitVec.ofNat 32 k) a b h.val * g h
      = (if h = (⟨k, by omega⟩ : Fin 512) then a * g h else 0)
        + (if h = (⟨k + 1, by omega⟩ : Fin 512) then b * g h else 0) := by
    intro h
    rw [weight_eq k hk a b h.val h.isLt]
    simp only [Fin.ext_iff]
    split_ifs with p q <;> first | omega | simp
  simp only [e, Finset.sum_add_distrib, Finset.sum_ite_eq', Finset.mem_univ, if_true]

/-- THE TWO ARRANGEMENTS AGREE. For a table of real entries and real coordinates, the table contracted along its
    rows with the weight row of `x` and then along its columns with the weight row of `y` is the four-corner sample:
    each contraction leaves two terms, and the product of the two sums is the sum of the four products. -/
theorem contract_eq_blend (T : Fin 512 → Fin 512 → EReal) (hT : ∀ h w, ∃ r : ℝ, T h w = r) (x y : EReal)
    (hx : ∃ r : ℝ, x = r) (hy : ∃ r : ℝ, y = r) :
    ∑ w : Fin 512, (∑ h : Fin 512, weight (cell x) (1 - frac x) (frac x) h.val * T h w)
        * weight (cell y) (1 - frac y) (frac y) w.val = blend T x y := by
  obtain ⟨kx, hkx, ex⟩ := cell_small x
  obtain ⟨ky, hky, ey⟩ := cell_small y
  have hlox : lo x = ⟨kx, by omega⟩ := Fin.ext (by show (cell x).toNat = kx; rw [ex, BitVec.toNat_ofNat]; omega)
  have hhix : hi x = ⟨kx + 1, by omega⟩ :=
    Fin.ext (by show (cell x).toNat + 1 = kx + 1; rw [ex, BitVec.toNat_ofNat]; omega)
  have hloy : lo y = ⟨ky, by omega⟩ := Fin.ext (by show (cell y).toNat = ky; rw [ey, BitVec.toNat_ofNat]; omega)
  have hhiy : hi y = ⟨ky + 1, by omega⟩ :=
    Fin.ext (by show (cell y).toNat + 1 = ky + 1; rw [ey, BitVec.toNat_ofNat]; omega)
  -- the offsets and their complements are real numbers
  obtain ⟨rx, rfl⟩ := hx
  obtain ⟨ry, rfl⟩ := hy
  obtain ⟨fa, hfa⟩ : ∃ r : ℝ, frac (rx : EReal) = r := ⟨rx - ((cell (rx : EReal)).toInt : ℝ), (EReal.coe_sub _ _).symm⟩
  obtain ⟨fb, hfb⟩ : ∃ r : ℝ, frac (ry : EReal) = r := ⟨ry - ((cell (ry : EReal)).toInt : ℝ), (EReal.coe_sub _ _).symm⟩
  have ha : (1 : EReal) - frac (rx : EReal) = ((1 - fa : ℝ) : EReal) := by rw [hfa, ← EReal.coe_one, ← EReal.coe_sub]
  have hb : (1 : EReal) - frac (ry : EReal) = ((1 - fb : ℝ) : EReal) := by rw [hfb, ← EReal.coe_one, ← EReal.coe_sub]
  -- along the rows, then along the columns
  have inner : ∀ w : Fin 512, ∑ h : Fin 512, weight (cell (rx : EReal)) (1 - frac (rx : EReal)) (frac (rx : EReal)) h.val * T h w
      = (1 - frac (rx : EReal)) * T ⟨kx, by omega⟩ w + frac (rx : EReal) * T ⟨kx + 1, by omega⟩ w := by
    intro w
    rw [ex]
    exact contract kx hkx _ _ (fun h => T h w)
  have outer := contract ky hky (1 - frac (ry : EReal)) (frac (ry : EReal))
    (fun w => (1 - frac (rx : EReal)) * T ⟨kx, by omega⟩ w + frac (rx : EReal) * T ⟨kx + 1, by omega⟩ w)
  rw [Finset.sum_congr rfl (fun w _ => by rw [inner w, mul_comm]), ey, outer]
  unfold blend
  rw [hlox, hhix, hloy, hhiy, ha, hb, hfa, hfb]
  obtain ⟨t00, e00⟩ := hT ⟨kx, by omega⟩ ⟨ky, by omega⟩
  obtain ⟨t01, e01⟩ := hT ⟨kx, by omega⟩ ⟨ky + 1, by omega⟩
  obtain ⟨t10, e10⟩ := hT ⟨kx + 1, by omega⟩ ⟨ky, by omega⟩
  obtain ⟨t11, e11⟩ := hT ⟨kx + 1, by omega⟩ ⟨ky + 1, by omega⟩
  rw [e00, e01, e10, e11]
  simp only [← EReal.coe_mul, ← EReal.coe_add]
  congr 1
  ring

end Cert.Bilinear

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KernelWeights.lean ====
/-
  The kernel body's weight rows, read at an index.

  From one block of locations `v0 : [3072, 2]` the body takes the two coordinate columns, computes for each row the
  cell word and the offset inside the cell, and spreads them along 512 lanes as a weight row: `1 - offset` on the lane
  whose number is the cell, `offset` on the next lane, zero elsewhere. Read at `(r, h)` the row-direction weights are
  `weight (cell x) (1 - frac x) (frac x) h` for `x` the first coordinate of row `r`; the column-direction pieces
  (cell word, offset, complement, lane test) are read the same way from the second coordinate.
-/
import proofs.«114739_j72816875536993_2_alg».proof.Proof.Gen.KernelIdeal.Frame
import proofs.«114739_j72816875536993_2_alg».proof.Proof.OneHot
import proofs.«114739_j72816875536993_2_alg».proof.Proof.LibKeepdims
import proofs.«114739_j72816875536993_2_alg».proof.Proof.LibMatProduct
import Idealize.ShloMosaic.Lib.ValueIdx
import Idealize.ShloMosaic.Lib.Pipeline.Value
import Idealize.ShloMosaic.Lib.ValueLayout

set_option maxRecDepth 16384

noncomputable section

namespace Cert.KernelIdeal.Point

open Cert.KernelIdeal Cert.KernelIdeal.Gen Idealize.ShloMosaic Idealize.ShloMosaic.ValueIdx Cert.Bilinear
open Cert.LibKeepdims Cert.LibMatProduct

/-- A column `[3072, 1]` recast as the vector `[3072]` reads, at `r`, the column's entry of row `r`. -/
theorem shapeCast_col_vec {α : Type} (x : S3072x1.Idx → α) (h : S3072x1.ShapeCasts S3072) (r : Fin 3072) :
    shapeCast S3072 x h (ix1 r) = x (ix2 r (0 : Fin 1)) :=
  shapeCast_apply x h _ _ (by
    rw [Shape.rowMajor_val_two, Shape.rowMajor_val_one]
    show r.val * 1 + 0 = r.val
    omega)

/-- Column `j` of the block of locations, as a column `[3072, 1]`, read at row `r`. -/
theorem slice_col0 (v : FVec Ideal S3072x2 .f32) (h : S3072x2.Slices ![0, 0] S3072x1) (r : Fin 3072) :
    extractStridedSlice S3072x1 ![0, 0] v h (ix2 r (0 : Fin 1)) = v (ix2 r (0 : Fin 2)) :=
  extractStridedSlice_apply ![0, 0] v h _ _ (fun a => match a with
    | ⟨0, _⟩ => by show r.val = 0 + r.val; omega
    | ⟨1, _⟩ => by show 0 = 0 + 0; rfl)

theorem slice_col1 (v : FVec Ideal S3072x2 .f32) (h : S3072x2.Slices ![0, 1] S3072x1) (r : Fin 3072) :
    extractStridedSlice S3072x1 ![0, 1] v h (ix2 r (0 : Fin 1)) = v (ix2 r (1 : Fin 2)) :=
  extractStridedSlice_apply ![0, 1] v h _ _ (fun a => match a with
    | ⟨0, _⟩ => by show r.val = 0 + r.val; omega
    | ⟨1, _⟩ => by show 1 = 1 + 0; rfl)

/-- Pointwise operations at the ideal values, read at an index. -/
theorem fptosi_at {s : Shape} {φ : FTy} (w : ℕ) (x : FVec Ideal s φ) (i : s.Idx) : fptosi w x i = Ideal.fptosi w (x i) := rfl
theorem floor_at {s : Shape} {φ : FTy} (x : FVec Ideal s φ) (i : s.Idx) : floor x i = Ideal.liftRound Int.floor (x i) := rfl
theorem addi_at {s : Shape} {w : ℕ} (x y : IVec s w) (i : s.Idx) : addi x y i = IntOp.addi (x i) (y i) := rfl
theorem sitofp_at {s : Shape} {φ : FTy} {w : ℕ} (x : IVec s w) (i : s.Idx) :
    (sitofp φ x : FVec Ideal s φ) i = (((x i).toInt : ℝ) : EReal) := rfl
theorem ofBits_at (φ : FTy) (b : BitVec φ.bits) : FloatOps.ofBits (F := Ideal) φ b = Ideal.ofBits φ b := rfl

variable (v0 : Vec Ideal S3072x2 .f32) (r : Fin 3072)

/-- The second coordinates as a vector. -/
theorem ycol_apply : k0_pay2 (F := Ideal) v0 (ix1 r) = v0 (ix2 r (1 : Fin 2)) := by
  unfold k0_pay2 k0_pay1
  rw [shapeCast_col_vec, slice_col1, shapeCast_self]

/-- The cell word of the second coordinate. -/
theorem ycell_apply : k0_pay3 (F := Ideal) v0 (ix1 r) = cell (v0 (ix2 r (1 : Fin 2))) := by
  unfold k0_pay3
  show Ideal.fptosi 32 (min (Ideal.ofBits .f32 0x43FF0000#32) (max (Ideal.ofBits .f32 0x00000000#32)
    (Ideal.liftRound Int.floor (k0_pay2 (F := Ideal) v0 (ix1 r))))) = _
  rw [w510, Ideal.ofBits_zero_f32, ycol_apply]
  rfl

/-- The offset of the second coordinate inside its cell, kept as a column. -/
theorem yfrac_apply : k0_pay4 (F := Ideal) v0 (ix2 r (0 : Fin 1)) = frac (v0 (ix2 r (1 : Fin 2))) := by
  unfold k0_pay4
  rw [shapeCast_a_a1_apply]
  show k0_pay2 (F := Ideal) v0 (ix1 r) - (((k0_pay3 (F := Ideal) v0 (ix1 r)).toInt : ℝ) : EReal) = _
  rw [ycol_apply, ycell_apply]
  rfl

/-- The cell word of the second coordinate, kept as a column. -/
theorem ycellcol_apply : k0_pay5 (F := Ideal) v0 (ix2 r (0 : Fin 1)) = cell (v0 (ix2 r (1 : Fin 2))) := by
  unfold k0_pay5
  rw [shapeCast_a_a1_apply, ycell_apply]

/-- The complement of that offset. -/
theorem ycomp_apply : k0_pay8 (F := Ideal) v0 (ix2 r (0 : Fin 1)) = 1 - frac (v0 (ix2 r (1 : Fin 2))) := by
  unfold k0_pay8
  show Ideal.ofBits .f32 0x3F800000#32 - k0_pay4 (F := Ideal) v0 (ix2 r (0 : Fin 1)) = _
  rw [one_word, yfrac_apply]

/-- The lane test of the second coordinate's cell: lane `w` against the cell word. -/
theorem ytest_apply (w : Fin 512) :
    k0_pay7 (F := Ideal) v0 (ix2 r w) = IntOp.cmpi .eq (BitVec.ofNat 32 w.val) (cell (v0 (ix2 r (1 : Fin 2)))) := by
  unfold k0_pay7
  show IntOp.cmpi .eq (iota .tc S3072x512 32 [1] _ (ix2 r w)) (broadcastTo S3072x512 (k0_pay5 (F := Ideal) v0) _ (ix2 r w)) = _
  rw [iota_single_apply, broadcastTo_a1_ab_apply, ycellcol_apply]

/-- The first coordinates as a vector, the x-side spelt as the body spells it. -/
theorem xcol_apply :
    shapeCast S3072 (extractStridedSlice S3072x1 ![0, 0] (k0_pay1 (F := Ideal) v0) slices_S3072x2_o0_0_S3072x1)
      shapeCasts_S3072x1_S3072 (ix1 r) = v0 (ix2 r (0 : Fin 2)) := by
  unfold k0_pay1
  rw [shapeCast_col_vec, slice_col0, shapeCast_self]

/-- THE ROW-DIRECTION WEIGHTS at `(r, h)`: the weight row of the first coordinate's cell, `1 - offset` on the cell's
    lane and `offset` on the next. -/
theorem xweight_apply (h : Fin 512) :
    k0_pay6 (F := Ideal) v0 (ix2 r h)
      = weight (cell (v0 (ix2 r (0 : Fin 2)))) (1 - frac (v0 (ix2 r (0 : Fin 2)))) (frac (v0 (ix2 r (0 : Fin 2)))) h.val := by
  unfold k0_pay6
  show Scalar.select (IntOp.cmpi .eq (iota .tc S3072x512 32 [1] _ (ix2 r h)) (broadcastTo S3072x512 _ _ (ix2 r h)))
      (broadcastTo S3072x512 _ _ (ix2 r h))
      (Scalar.select (IntOp.cmpi .eq (iota .tc S3072x512 32 [1] _ (ix2 r h)) (broadcastTo S3072x512 _ _ (ix2 r h)))
        (broadcastTo S3072x512 _ _ (ix2 r h)) (Ideal.ofBits .f32 0x00000000#32)) = _
  rw [iota_single_apply]
  simp only [broadcastTo_a1_ab_apply, shapeCast_self]
  simp only [shapeCast_a_a1_apply, subf_apply, addi_at, fptosi_at, minimumf_apply, maximumf_apply, broadcast_apply,
    floor_at, sitofp_at, xcol_apply, ofBits_at, w510, one_word, Ideal.ofBits_zero_f32]
  rfl

end Cert.KernelIdeal.Point

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.KernelPoint.lean ====
/-
  What the kernel body stores, read at an entry.

  The body writes one block `[3072, 4]`: column `f` is, row by row, the lane sum over `w` of
  `(weights_x · table_f) (r, w) · weights_y (r, w)`, where `table_f` is row `f` of the resident table `[4, 512, 512]` and
  the product with the row-direction weights is a matrix product into a zero accumulator. Read at `(r, f)` this is the
  double contraction `∑ w, (∑ h, weights_x (r, h) · table (f, h, w)) · weights_y (r, w)`, with both weight rows those of
  the location in row `r` of the block of locations.
-/
import proofs.«114739_j72816875536993_2_alg».proof.Proof.KernelWeights
import proofs.«114739_j72816875536993_2_alg».proof.Proof.LibRowReduce

set_option maxRecDepth 16384

noncomputable section

namespace Cert.KernelIdeal.Point

open Cert.KernelIdeal Cert.KernelIdeal.Gen Idealize.ShloMosaic Idealize.ShloMosaic.ValueIdx Cert.Bilinear
open Cert.LibKeepdims Cert.LibMatProduct Cert.LibRowReduce

/-- ONE FEATURE'S COLUMN: the weights' product with one table, times the column-direction weights, summed along the
    lanes and kept as a column, read at row `r`. -/
theorem feature_apply (wx : FVec Ideal S3072x512 .bf16) (g : FVec Ideal S1x512x512 .bf16) (wy : FVec Ideal S3072x512 .f32)
    (r : Fin 3072) :
    shapeCast S3072x1 (multiReduction .add [1] S3072
        (mulf (matmul dot_S3072x512_S512x512_S3072x512_1_0_0_1_n_n none wx
          (shapeCast S512x512 g shapeCasts_S1x512x512_S512x512) (constant S3072x512 .f32 0x00000000#32)) wy)
        0x00000000#32 reduces_S3072x512_S3072 (.inl rfl) rfl) shapeCasts_S3072_S3072x1 (ix2 r (0 : Fin 1))
      = ∑ w : Fin 512, (∑ h : Fin 512, wx (ix2 r h) * g (ix3 (0 : Fin 1) h w)) * wy (ix2 r w) := by
  refine (shapeCast_a_a1_apply _ _ r 0).trans ?_
  refine (rowSum_apply _ _ _ _ _ r).trans ?_
  refine Finset.sum_congr rfl fun w _ => ?_
  refine (mulf_apply _ _ _).trans ?_
  refine congrArg (· * wy (ix2 r w)) ?_
  refine (matmul_zero_apply _ _ rfl rfl rfl rfl rfl rfl wx _ r w).trans ?_
  refine Finset.sum_congr rfl fun h _ => ?_
  exact congrArg (wx (ix2 r h) * ·) (shapeCast_1ab_ab_apply g _ h w)

/-- Four columns `[3072, 1]` joined along the lanes into `[3072, 4]`: entry `(r, f)` is column `f` at row `r`. -/
theorem concat4_apply {α : Type} (a0 a1 a2 a3 : S3072x1.Idx → α)
    (hc : Shape.Concatenates (([⟨S3072x1, a0⟩, ⟨S3072x1, a1⟩, ⟨S3072x1, a2⟩, ⟨S3072x1, a3⟩] :
      List ((s : Shape) × (s.Idx → α))).map (·.1)) S3072x4 1) (r : Fin 3072) (f : Fin 4) :
    concatenate S3072x4 1 [⟨S3072x1, a0⟩, ⟨S3072x1, a1⟩, ⟨S3072x1, a2⟩, ⟨S3072x1, a3⟩] hc (ix2 r f)
      = (![a0, a1, a2, a3] f) (ix2 r (0 : Fin 1)) := by
  have hi : ∀ b : Fin S3072x1.rank, b.cast (rfl : S3072x1.rank = S3072x4.rank) ≠ (1 : Fin 2) →
      ((ix2 r (0 : Fin 1) : S3072x1.Idx) b).val = ((ix2 r f : S3072x4.Idx) (b.cast rfl)).val := fun b hb => by
    match b with
    | ⟨0, _⟩ => rfl
    | ⟨1, _⟩ => exact absurd rfl hb
  match f with
  | ⟨0, _⟩ => exact concatenate_apply_piece 1 _ hc _ 0 (by show (0 : ℕ) < 4; omega) S3072x1 a0 rfl rfl 0 rfl (ix2 r 0) hi rfl
  | ⟨1, _⟩ => exact concatenate_apply_piece 1 _ hc _ 1 (by show (1 : ℕ) < 4; omega) S3072x1 a1 rfl rfl 1 rfl (ix2 r 0) hi rfl
  | ⟨2, _⟩ => exact concatenate_apply_piece 1 _ hc _ 2 (by show (2 : ℕ) < 4; omega) S3072x1 a2 rfl rfl 2 rfl (ix2 r 0) hi rfl
  | ⟨3, _⟩ => exact concatenate_apply_piece 1 _ hc _ 3 (by show (3 : ℕ) < 4; omega) S3072x1 a3 rfl rfl 3 rfl (ix2 r 0) hi rfl

/-- Row `f` of the resident table, loaded as `[1, 512, 512]`, read at `(0, h, w)`. -/
theorem table_row (x0 : Vec Ideal S4x512x512 .bf16) (f : Fin 4) (h w : Fin 512) :
    (![View.ld x0 r0_1, View.ld x0 r0_2, View.ld x0 r0_3, View.ld x0 r0_4] f) (ix3 (0 : Fin 1) h w) = x0 (ix3 f h w) := by
  match f with
  | ⟨0, _⟩ =>
    show x0 (r0_1.emb (ix3 (0 : Fin 1) h w)) = _
    refine congrArg x0 (funext fun a => Fin.ext ?_)
    rw [Rect.emb_apply]
    match a with
    | ⟨0, _⟩ => show 0 + 1 * 0 = 0; rfl
    | ⟨1, _⟩ => show 0 + 1 * h.val = h.val; omega
    | ⟨2, _⟩ => show 0 + 1 * w.val = w.val; omega
  | ⟨1, _⟩ =>
    show x0 (r0_2.emb (ix3 (0 : Fin 1) h w)) = _
    refine congrArg x0 (funext fun a => Fin.ext ?_)
    rw [Rect.emb_apply]
    match a with
    | ⟨0, _⟩ => show 1 + 1 * 0 = 1; rfl
    | ⟨1, _⟩ => show 0 + 1 * h.val = h.val; omega
    | ⟨2, _⟩ => show 0 + 1 * w.val = w.val; omega
  | ⟨2, _⟩ =>
    show x0 (r0_3.emb (ix3 (0 : Fin 1) h w)) = _
    refine congrArg x0 (funext fun a => Fin.ext ?_)
    rw [Rect.emb_apply]
    match a with
    | ⟨0, _⟩ => show 2 + 1 * 0 = 2; rfl
    | ⟨1, _⟩ => show 0 + 1 * h.val = h.val; omega
    | ⟨2, _⟩ => show 0 + 1 * w.val = w.val; omega
  | ⟨3, _⟩ =>
    show x0 (r0_4.emb (ix3 (0 : Fin 1) h w)) = _
    refine congrArg x0 (funext fun a => Fin.ext ?_)
    rw [Rect.emb_apply]
    match a with
    | ⟨0, _⟩ => show 3 + 1 * 0 = 3; rfl
    | ⟨1, _⟩ => show 0 + 1 * h.val = h.val; omega
    | ⟨2, _⟩ => show 0 + 1 * w.val = w.val; omega

theorem hz2 : (![0, 0] : Fin 2 → Nat) = fun _ => 0 := funext fun a => by fin_cases a <;> rfl

/-- The column-direction weights as the body selects them from its column pieces: the complement of the offset on the
    lanes the cell's test marks, the offset on the lanes equal to the cell word plus one, zero elsewhere. -/
def ylanes (v23 : FVec Ideal S3072x1 .f32) (v25 : IVec S3072x1 32) (v27 : IVec S3072x512 32) (v45 : IVec S3072x512 1)
    (v47 : FVec Ideal S3072x1 .f32) (c1 : BitVec 32) : FVec Ideal S3072x512 .f32 :=
  select v45 (broadcastTo S3072x512 (shapeCast S3072x1 v47 shapeCasts_S3072x1_S3072x1) broadcasts_S3072x1_S3072x512)
    (select (cmpi .eq v27 (broadcastTo S3072x512 (addi v25 (broadcast S3072x1 c1)) broadcasts_S3072x1_S3072x512))
      (broadcastTo S3072x512 (shapeCast S3072x1 v23 shapeCasts_S3072x1_S3072x1) broadcasts_S3072x1_S3072x512)
      (broadcast S3072x512 (Scalar.ofBits .f32 0x00000000#32)))

theorem ylanes_apply (v23 : FVec Ideal S3072x1 .f32) (v25 : IVec S3072x1 32) (v27 : IVec S3072x512 32) (v45 : IVec S3072x512 1)
    (v47 : FVec Ideal S3072x1 .f32) (c1 : BitVec 32) (r : Fin 3072) (w : Fin 512) :
    ylanes v23 v25 v27 v45 v47 c1 (ix2 r w)
      = Scalar.select (v45 (ix2 r w)) (v47 (ix2 r (0 : Fin 1)))
          (Scalar.select (IntOp.cmpi .eq (v27 (ix2 r w)) (IntOp.addi (v25 (ix2 r (0 : Fin 1))) c1)) (v23 (ix2 r (0 : Fin 1)))
            (Ideal.ofBits .f32 0x00000000#32)) := by
  unfold ylanes
  show Scalar.select (v45 (ix2 r w)) (broadcastTo S3072x512 _ _ (ix2 r w))
      (Scalar.select (IntOp.cmpi .eq (v27 (ix2 r w)) (broadcastTo S3072x512 _ _ (ix2 r w))) (broadcastTo S3072x512 _ _ (ix2 r w))
        (Ideal.ofBits .f32 0x00000000#32)) = _
  simp only [broadcastTo_a1_ab_apply, shapeCast_self]
  rfl

/-- THE PAYLOAD AT `(r, f)`: feature `f`'s column is the double contraction of table `f` with the row-direction weights
    `v43` and the column-direction weights. -/
theorem pay9_apply (v23 : FVec Ideal S3072x1 .f32) (v25 : IVec S3072x1 32) (v27 : IVec S3072x512 32)
    (v43 : FVec Ideal S3072x512 .bf16) (v45 : IVec S3072x512 1) (v47 : FVec Ideal S3072x1 .f32) (c1 : BitVec 32)
    (g0 g1 g2 g3 : Vec Ideal S1x512x512 .bf16) (r : Fin 3072) (f : Fin 4) :
    k0_pay9 (F := Ideal) v23 v25 v27 v43 v45 v47 c1 g0 g1 g2 g3 (ix2 r f)
      = ∑ w : Fin 512, (∑ h : Fin 512, v43 (ix2 r h) * (![g0, g1, g2, g3] f) (ix3 (0 : Fin 1) h w))
          * ylanes v23 v25 v27 v45 v47 c1 (ix2 r w) := by
  unfold k0_pay9
  refine (concat4_apply _ _ _ _ _ r f).trans ?_
  match f with
  | ⟨0, _⟩ => exact feature_apply v43 g0 (ylanes v23 v25 v27 v45 v47 c1) r
  | ⟨1, _⟩ => exact feature_apply v43 g1 (ylanes v23 v25 v27 v45 v47 c1) r
  | ⟨2, _⟩ => exact feature_apply v43 g2 (ylanes v23 v25 v27 v45 v47 c1) r
  | ⟨3, _⟩ => exact feature_apply v43 g3 (ylanes v23 v25 v27 v45 v47 c1) r

/-- THE STORED BLOCK AT `(r, f)`: the double contraction of table `f` with the two weight rows of the location in row
    `r` of the block of locations. -/
theorem out_apply (x0 : Vec Ideal S4x512x512 .bf16) (x1 : Vec Ideal S3072x2 .f32) (r : Fin 3072) (f : Fin 4) :
    out0_2 (F := Ideal) x0 x1 (ix2 r f)
      = ∑ w : Fin 512, (∑ h : Fin 512,
            weight (cell (x1 (ix2 r (0 : Fin 2)))) (1 - frac (x1 (ix2 r (0 : Fin 2)))) (frac (x1 (ix2 r (0 : Fin 2)))) h.val
              * x0 (ix3 f h w))
          * weight (cell (x1 (ix2 r (1 : Fin 2)))) (1 - frac (x1 (ix2 r (1 : Fin 2)))) (frac (x1 (ix2 r (1 : Fin 2)))) w.val := by
  unfold out0_2
  rw [View.canon_unit_zero hz2]
  simp only [View.ld_unit_zero (S := S3072x2) hz2]
  refine (pay9_apply _ _ _ _ _ _ _ _ _ _ _ r f).trans ?_
  refine Finset.sum_congr rfl fun w _ => ?_
  rw [ylanes_apply, ytest_apply, ycomp_apply, ycellcol_apply, yfrac_apply, iota_single_apply, Ideal.ofBits_zero_f32]
  refine congrArg₂ (· * ·) (Finset.sum_congr rfl fun h _ => ?_) rfl
  rw [xweight_apply, table_row]

end Cert.KernelIdeal.Point

end
-- ==== Proof.KernelArray.lean ====
/-
  From the blocks to the whole result.

  Grid point `t` of 2731 stages rows `3072 t … 3072 t + 3071` of the padded location array and the whole table, and
  writes back rows `3072 t … 3072 t + 3071` of the padded output. What it writes at row `r` of its block depends only
  on row `3072 t + r` of the locations and on the table, so every block is the restriction of ONE function of the two
  arrays the region finds; the 2731 blocks tile the padded output, which therefore ends holding that function.
  The table the region finds is the argument table with its feature axis moved to the front; the location array it
  finds is the argument array with 1024 zero rows behind it; the result returned is the first 8388608 rows of the
  padded output, which never read the padding.
-/
import proofs.«114739_j72816875536993_2_alg».proof.Proof.KernelPoint
import Idealize.ShloMosaic.Lib.StableHlo.Run
import Idealize.ShloMosaic.Lib.KernelVsHost

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Bilinear Cert.KernelIdeal.Point
open Idealize.ShloMosaic.Pipeline (Dat)

variable (m : (ℓ : Loc nD τ sig) → Buf (Elt Ideal) ℓ) (ρ : Dev nD → PrngReg)

/-- The padded output as one function of the table `T` (feature axis first) and the padded locations `Q`: entry
    `(n, f)` is table `f` contracted with the two weight rows of location `n`. -/
def padded (T : S4x512x512.Idx → EReal) (Q : S8389632x2.Idx → EReal) : S8389632x4.Idx → EReal := fun i =>
  ∑ w : Fin 512, (∑ h : Fin 512,
      weight (cell (Q (ix2 (i 0) (0 : Fin 2)))) (1 - frac (Q (ix2 (i 0) (0 : Fin 2)))) (frac (Q (ix2 (i 0) (0 : Fin 2)))) h.val
        * T (ix3 (i 1) h w))
    * weight (cell (Q (ix2 (i 0) (1 : Fin 2)))) (1 - frac (Q (ix2 (i 0) (1 : Fin 2)))) (frac (Q (ix2 (i 0) (1 : Fin 2)))) w.val

/-- The index maps over the grid: the table's block is always block `(0, 0, 0)`; the locations' and the output's block
    at point `t` is block `(t, 0)`. -/
theorem idx_facts : ∀ t : Fin cfg0.N, win0_0.index t (0 : Fin 3) = 0 ∧ win0_0.index t (1 : Fin 3) = 0
    ∧ win0_0.index t (2 : Fin 3) = 0 ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `padded` of the table and the locations as the region finds them. -/
theorem flushed_eq (c : Dev nD) (t : Fin cfg0.N) :
    (dats m 0 c).flushed 2 t
      = ((cfg0.win 2).blk t).view.read (Elt Ideal) (padded (V m c main_v1) (V m c main_v2)) := by
  show (cfg0.win 2).cut (grid0.coords t) ((dats m 0 c).after 2 t) = _
  rw [after0_2]
  obtain ⟨e0, e1, e2, e3, e4, e5, e6⟩ := idx_facts t
  funext y
  obtain ⟨r, f, rfl⟩ : ∃ (r : Fin 3072) (f : Fin 4), y = ix2 r f := ⟨y 0, y 1, eq_ix2 y⟩
  show out0_2 (iblk m c 0 t) (iblk m c 1 t) (ix2 r f)
    = padded (V m c main_v1) (V m c main_v2) (((cfg0.win 2).blk t).view.emb (ix2 r f))
  refine (out_apply (iblk m c 0 t) (iblk m c 1 t) r f).trans ?_
  have hq : ∀ j : Fin 2, iblk m c 1 t (ix2 r j)
      = V m c main_v2 (ix2 ((((cfg0.win 2).blk t).view.emb (ix2 r f)) 0) j) := by
    intro j
    show V m c main_v2 (((cfg0.win 1).blk t).view.emb (ix2 r j)) = _
    refine congrArg (V m c main_v2) (funext fun a => Fin.ext ?_)
    match a with
    | ⟨0, _⟩ =>
      show win0_1.index t (0 : Fin 2) * 3072 + 1 * r.val = win0_2.index t (0 : Fin 2) * 3072 + 1 * r.val
      rw [e3, e5]
    | ⟨1, _⟩ =>
      show win0_1.index t (1 : Fin 2) * 2 + 1 * j.val = j.val
      rw [e4]; omega
  have hT : ∀ h w : Fin 512, iblk m c 0 t (ix3 f h w)
      = V m c main_v1 (ix3 ((((cfg0.win 2).blk t).view.emb (ix2 r f)) 1) h w) := by
    intro h w
    show V m c main_v1 (((cfg0.win 0).blk t).view.emb (ix3 f h w)) = _
    refine congrArg (V m c main_v1) (funext fun a => Fin.ext ?_)
    match a with
    | ⟨0, _⟩ =>
      show win0_0.index t (0 : Fin 3) * 4 + 1 * f.val = win0_2.index t (1 : Fin 2) * 4 + 1 * f.val
      rw [e0, e6]
    | ⟨1, _⟩ =>
      show win0_0.index t (1 : Fin 3) * 512 + 1 * h.val = h.val
      rw [e1]; omega
    | ⟨2, _⟩ =>
      show win0_0.index t (2 : Fin 3) * 512 + 1 * w.val = w.val
      rw [e2]; omega
  simp only [hq, hT]
  rfl

/-- An index of the padded output is in point `t`'s block iff each coordinate is in the block's range on its axis. -/
theorem mem_blk (t : Fin cfg0.N) (i : S8389632x4.Idx) :
    i ∈ ((cfg0.win 2).blk t).view.set ↔ ∀ a : Fin 2, win0_2.index t a * S3072x4.size a ≤ (i a).val
      ∧ (i a).val < win0_2.index t a * S3072x4.size a + S3072x4.size a := by
  show i ∈ ((View.whole main_v3).slice (win0_2.rect t)).set ↔ _
  rw [View.set_slice_whole, Rect.mem_set_unit]
  exact Iff.rfl

/-- THE BLOCKS TILE THE PADDED OUTPUT: row `n` lies in the block of point `n / 3072`. -/
theorem cover (i : S8389632x4.Idx) :
    ∃ t : Fin cfg0.N, (cfg0.win 2).flush t = true ∧ i ∈ ((cfg0.win 2).blk t).view.set := by
  have hi0 : (i 0).val < 8389632 := (i 0).isLt
  have hi1 : (i 1).val < 4 := (i 1).isLt
  have hN : cfg0.N = 2731 := N_0
  have ht : (i 0).val / 3072 < cfg0.N := by rw [hN]; omega
  obtain ⟨_, _, _, _, _, e5, e6⟩ := idx_facts ⟨(i 0).val / 3072, ht⟩
  refine ⟨⟨(i 0).val / 3072, ht⟩, flush0_2 _, ?_⟩
  rw [mem_blk]
  intro a
  match a with
  | ⟨0, _⟩ =>
    show win0_2.index ⟨(i 0).val / 3072, ht⟩ (0 : Fin 2) * 3072 ≤ (i 0).val
      ∧ (i 0).val < win0_2.index ⟨(i 0).val / 3072, ht⟩ (0 : Fin 2) * 3072 + 3072
    rw [e5]
    show (i 0).val / 3072 * 3072 ≤ (i 0).val ∧ (i 0).val < (i 0).val / 3072 * 3072 + 3072
    omega
  | ⟨1, _⟩ =>
    show win0_2.index ⟨(i 0).val / 3072, ht⟩ (1 : Fin 2) * 4 ≤ (i 1).val
      ∧ (i 1).val < win0_2.index ⟨(i 0).val / 3072, ht⟩ (1 : Fin 2) * 4 + 4
    rw [e6]
    omega

/-- THE PADDED OUTPUT after the region. -/
theorem final (c : Dev nD) : (dats m 0 c).arrAt 2 cfg0.N = padded (V m c main_v1) (V m c main_v2) :=
  (dats m 0 c).arrAt_eq_of_cover 2 _ (fun t _ => flushed_eq m c t) cover

end Cert.KernelIdeal.Whole

end
-- ==== Proof.KernelRun.lean ====
/-
  The kernel's run, with its result as one function of the argument arrays.

  Before the region the host moves the table's feature axis to the front and appends 1024 zero rows to the locations;
  after it, it keeps the first 8388608 rows of the padded output. So entry `(n, f)` of the result is the argument table's
  feature `f`, contracted along its rows and its columns with the two weight rows of location `n` — for every
  `n < 8388608`, none of which is a padding row. For a table of real entries and real locations that double contraction
  is the bilinear sample (distributivity on the reals).
-/
import proofs.«114739_j72816875536993_2_alg».proof.Proof.KernelArray

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Bilinear Cert.KernelIdeal.Point
open Idealize.ShloMosaic.Pipeline (Dat)

variable (m : (ℓ : Loc nD τ sig) → Buf (Elt Ideal) ℓ) (ρ : Dev nD → PrngReg)

/-- The table the region finds has the feature axis first: entry `(f, h, w)` is the argument's `(h, w, f)`. -/
theorem table_found (c : Dev nD) (f : Fin 4) (h w : Fin 512) :
    V m c main_v1 (ix3 f h w) = m ((c.tc : Thread nD τ).loc main_arg0) (ix3 h w f) := by
  have e : (V m c main_v1 : S4x512x512.Idx → EReal)
      = truncf (F := Ideal) .bf16 (transpose S4x512x512 [2, 0, 1]
          (m ((c.tc : Thread nD τ).loc main_arg0) : S512x512x4.Idx → EReal)
          transposes_S512x512x4_S4x512x512_2_0_1) bitsLt_bf16_f32 := by
    dsimp only [Gen.V, Gen.V0]
    simp only [Gen.hostOps0, Gen.hostOps0_1, List.flatten_cons, List.flatten_nil, List.append_nil, List.cons_append,
      List.nil_append]
    after_results
  rw [e]
  show transpose S4x512x512 [2, 0, 1] _ _ (ix3 f h w) = _
  exact transpose_apply [2, 0, 1] _ _ (ix3 f h w) (ix3 h w f) (fun b => by
    match b with
    | ⟨0, _⟩ => rfl
    | ⟨1, _⟩ => rfl
    | ⟨2, _⟩ => rfl)

/-- The locations the region finds are the argument's, on the rows that are not padding. -/
theorem locs_found (c : Dev nD) (n : Fin 8388608) (j : Fin 2) :
    V m c main_v2 (ix2 (⟨n.val, by omega⟩ : Fin 8389632) j) = m ((c.tc : Thread nD τ).loc main_arg1) (ix2 n j) := by
  have e : (V m c main_v2 : S8389632x2.Idx → EReal)
      = pad S8389632x2 ![0, 0] ![1024, 0] ![0, 0] (m ((c.tc : Thread nD τ).loc main_arg1) : S8388608x2.Idx → EReal)
          (sitofp (F := Ideal) .f32 (constantI S_ 32 0#32)) pads_S8388608x2_S8389632x2_010240_000 h_S_ := by
    dsimp only [Gen.V, Gen.V0]
    simp only [Gen.hostOps0, Gen.hostOps0_1, List.flatten_cons, List.flatten_nil, List.append_nil, List.cons_append,
      List.nil_append]
    after_results
    rfl
  rw [e]
  exact pad_apply_of_inside _ _ _ _ _ _ _ (ix2 (⟨n.val, by omega⟩ : Fin 8389632) j) (ix2 n j) (fun a => by
    match a with
    | ⟨0, _⟩ => show n.val = 0 + n.val * (0 + 1); omega
    | ⟨1, _⟩ => show j.val = 0 + j.val * (0 + 1); omega)

/-- The result as one function of the argument arrays: feature `f` of the table contracted with the two weight rows of
    location `n`. -/
def contracted (A : S512x512x4.Idx → EReal) (P : S8388608x2.Idx → EReal) : S8388608x4.Idx → EReal := fun i =>
  ∑ w : Fin 512, (∑ h : Fin 512,
      weight (cell (P (ix2 (i 0) (0 : Fin 2)))) (1 - frac (P (ix2 (i 0) (0 : Fin 2)))) (frac (P (ix2 (i 0) (0 : Fin 2)))) h.val
        * A (ix3 h w (i 1)))
    * weight (cell (P (ix2 (i 0) (1 : Fin 2)))) (1 - frac (P (ix2 (i 0) (1 : Fin 2)))) (frac (P (ix2 (i 0) (1 : Fin 2)))) w.val

/-- What the host's last line leaves in the result: the first 8388608 rows of the padded output, as `contracted` of
    the argument arrays. -/
theorem tail_eq (c : Dev nD) :
    Pipeline.afterTail₀ cfgs (dats m) 0 (V0 m) [hostOps1] c main_v4
      = contracted (m ((c.tc : Thread nD τ).loc main_arg0)) (m ((c.tc : Thread nD τ).loc main_arg1)) := by
  unfold Pipeline.afterTail₀
  show StableHlo.after hostOps1 _ (Proc.devRef .tc main_v4) = _
  after_results
  rw [show Pipeline.withArrays (cfgs 0).spec c (V0 m c) (fun w => (dats m 0 c).arrAt w (cfgs 0).N)
        (Proc.devRef .tc main_v3) = padded (V m c main_v1) (V m c main_v2) from
      (Pipeline.withArrays_arr spec0 launch0.win.arr_inj c _ _ 2).trans (final m c)]
  funext i
  obtain ⟨n, f, rfl⟩ : ∃ (n : Fin 8388608) (f : Fin 4), i = ix2 n f := ⟨i 0, i 1, eq_ix2 i⟩
  rw [extractStridedSlice_apply ![0, 0] _ slices_S8389632x4_S8388608x4_0_0 (ix2 n f)
    (ix2 (⟨n.val, by omega⟩ : Fin 8389632) f) (fun a => by
      match a with
      | ⟨0, _⟩ => show n.val = 0 + n.val; omega
      | ⟨1, _⟩ => show f.val = 0 + f.val; omega)]
  show ∑ w : Fin 512, (∑ h : Fin 512,
      weight (cell (V m c main_v2 (ix2 (⟨n.val, by omega⟩ : Fin 8389632) (0 : Fin 2))))
        (1 - frac (V m c main_v2 (ix2 (⟨n.val, by omega⟩ : Fin 8389632) (0 : Fin 2))))
        (frac (V m c main_v2 (ix2 (⟨n.val, by omega⟩ : Fin 8389632) (0 : Fin 2)))) h.val
        * V m c main_v1 (ix3 f h w))
    * weight (cell (V m c main_v2 (ix2 (⟨n.val, by omega⟩ : Fin 8389632) (1 : Fin 2))))
        (1 - frac (V m c main_v2 (ix2 (⟨n.val, by omega⟩ : Fin 8389632) (1 : Fin 2))))
        (frac (V m c main_v2 (ix2 (⟨n.val, by omega⟩ : Fin 8389632) (1 : Fin 2)))) w.val = _
  simp only [locs_found m c n, table_found m c]
  rfl

/-- THE KERNEL'S RUN: every weakly fair execution ends with the result at `contracted` of the argument arrays, which
    are unchanged. -/
theorem run : θ_run defs (onTc (τ := τ) (main (F := Ideal))) ⟨m, fun _ => 0, ρ⟩ fun r => ∀ c : Dev nD,
      r.2.mem ((c.tc : Thread nD τ).loc main_v4)
        = contracted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- For real entries and real coordinates the double contraction is the bilinear sample. -/
theorem contracted_eq_sample (A : S512x512x4.Idx → EReal) (P : S8388608x2.Idx → EReal)
    (hA : ∀ i, ∃ r : ℝ, A i = (r : EReal)) (hP : ∀ i, ∃ r : ℝ, P i = (r : EReal)) :
    contracted A P = Cert.Bilinear.G A P := by
  funext i
  exact contract_eq_blend (fun h w => A (ix3 h w (i 1))) (fun h w => hA _) _ _ (hP _) (hP _)

end Cert.KernelIdeal.Whole

end
-- ==== Proof.LibIndexWords.lean ====
/-
  Small naturals as 32-bit index words.

  An index computed on the host as a sum of two iotas is a 32-bit word `ofNat a + ofNat b` with `a + b` far below
  `2^31`. Such a word is not negative, reads back as the natural `a + b` both unsigned and signed, and jnp's
  negative-index wrap — `select (w < 0) (w + n) w` — leaves it unchanged.
-/
import Idealize.ShloMosaic.PureOps.Ideal
import Idealize.ShloMosaic.Lib.ValueIdx

namespace Cert.IndexWords

open Idealize.ShloMosaic Idealize.ShloMosaic.ValueIdx

/-- A natural below `2^31` as a 32-bit word reads back unsigned as itself. -/
theorem toNat_small (n : Nat) (h : n < 2147483648) : (BitVec.ofNat 32 n).toNat = n := by
  rw [BitVec.toNat_ofNat]; omega

/-- … and signed as itself: its sign bit is clear. -/
theorem toInt_small (n : Nat) (h : n < 2147483648) : (BitVec.ofNat 32 n).toInt = (n : Int) := by
  rw [BitVec.toInt_eq_toNat_of_lt (by rw [toNat_small n h]; omega), toNat_small n h]

/-- … so the natural a gather reads off it (signed, negatives to 0) is itself. -/
theorem toInt_toNat_small (n : Nat) (h : n < 2147483648) : (BitVec.ofNat 32 n).toInt.toNat = n := by
  rw [toInt_small n h]; rfl

/-- It is not below zero as a signed word. -/
theorem not_neg_small (n : Nat) (h : n < 2147483648) : IntOp.cmpi .slt (BitVec.ofNat 32 n) 0#32 = 0#1 := by
  unfold IntOp.cmpi
  have : (BitVec.ofNat 32 n).slt 0#32 = false := by
    rw [BitVec.slt, toInt_small n h]
    simp
  simp only [this]
  rfl

/-- The sum of two small words is the word of the sum. -/
theorem addi_small (a b : Nat) : IntOp.addi (BitVec.ofNat 32 a) (BitVec.ofNat 32 b) = BitVec.ofNat 32 (a + b) := by
  unfold IntOp.addi; rw [BitVec.ofNat_add]

/-- THE NEGATIVE-INDEX WRAP of a sum of two small words keeps the sum: the word is not negative, so the select takes
    its second branch. -/
theorem start_word (a b : Nat) (h : a + b < 2147483648) (X : BitVec 32) :
    Scalar.select (IntOp.cmpi .slt (IntOp.addi (BitVec.ofNat 32 a) (BitVec.ofNat 32 b)) 0#32) X
      (IntOp.addi (BitVec.ofNat 32 a) (BitVec.ofNat 32 b)) = BitVec.ofNat 32 (a + b) := by
  rw [addi_small, not_neg_small _ h, select_zero]

end Cert.IndexWords
-- ==== Proof.LibGatherPair.lean ====
/-
  A two-coordinate `stablehlo.gather`, read at an index.

  Two things an index expression `T[r, c]` lowers to are read here at an index: the join of the two index columns, and
  the gather itself.

  What `T[r, c]` of a table `T : [H, W, C]` at two integer arrays `r, c : [N]` lowers to: the two index words are
  joined into an array `idx : [N, 2]`, and the gather has offset_dims `[1]`, collapsed_slice_dims `[0, 1]`,
  start_index_map `[0, 1]`, index_vector_dim `1` and slice_sizes `[1, 1, C]`. Result element `(n, f)` is the table at
  row `idx[n, 0]`, column `idx[n, 1]`, feature `f`; each start index is read as a signed integer and kept inside its
  axis (negatives go to `0`, anything past the end to the last row or column), as StableHLO's gather does with every
  start index.
-/
import Idealize.ShloMosaic.Lib.ValueIdx
import Idealize.ShloMosaic.Lib.Pipeline.Value

noncomputable section

namespace Cert.GatherPair

open Idealize.ShloMosaic Idealize.ShloMosaic.ValueIdx

variable {α : Type}

/-- Two columns `[N, 1]` joined along axis 1, read in column 0: the first piece. -/
theorem concat_cols_left {N : Nat}
    (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n (0 : Fin 2)) = x₁ (ix2 n (0 : Fin 1)) :=
  concatenate_pair_apply_left 1 x₁ x₂ h (ix2 n 0) rfl (ix2 n 0)
    (fun b => match b with | ⟨0, _⟩ => rfl | ⟨1, _⟩ => rfl)

/-- … and in column 1: the second piece. -/
theorem concat_cols_right {N : Nat}
    (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n (1 : Fin 2)) = x₂ (ix2 n (0 : Fin 1)) :=
  concatenate_pair_apply_right 1 x₁ x₂ h (ix2 n 1) rfl rfl (ix2 n 0)
    (fun b hb => match b, hb with | ⟨0, _⟩, _ => rfl | ⟨1, _⟩, hb => absurd rfl hb) rfl

/-- Those dimension numbers for a table `[H, W, C]`, start indices `[N, 2]` and result `[N, C]`; their conditions
    `wf` are decided on a program's literal shapes. -/
abbrev pairDims (H W C N : Nat)
    (wf : GatherDims.WF ⟨3, ![H, W, C]⟩ ⟨2, ![N, 2]⟩ ⟨2, ![N, C]⟩ [1] [0, 1] [] [0, 1] [] 1 ![1, 1, C]) :
    GatherDims ⟨3, ![H, W, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- THE GATHER READ AT `(n, f)`: the table at row `idx[n, 0]` and column `idx[n, 1]`, each read signed and kept
    inside its axis, and feature `f`. -/
theorem gather_pair_apply {H W C N w : Nat} (hH : 0 < H) (hW : 0 < W)
    (wf : GatherDims.WF ⟨3, ![H, W, C]⟩ ⟨2, ![N, 2]⟩ ⟨2, ![N, C]⟩ [1] [0, 1] [] [0, 1] [] 1 ![1, 1, C])
    (x : (⟨3, ![H, W, C]⟩ : Shape).Idx → α) (idx : IVec ⟨2, ![N, 2]⟩ w) (n : Fin N) (f : Fin C) :
    Host.gather (pairDims H W C N wf) x idx (ix2 n f)
      = x (ix3 ⟨min (idx (ix2 n (0 : Fin 2))).toInt.toNat (H - 1), by omega⟩
            ⟨min (idx (ix2 n (1 : Fin 2))).toInt.toNat (W - 1), by omega⟩ f) := by
  unfold Host.gather
  congr 1
  funext a
  refine Fin.ext ?_
  match a with
  | ⟨0, _⟩ =>
    show (pairDims H W C N wf).start (ix2 n f) idx 0 + (pairDims H W C N wf).batchCoord (ix2 n f) 0
      + (pairDims H W C N wf).offCoord (ix2 n f) 0 = _
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos (show (0 : Fin 3) ∈ (pairDims H W C N wf).startIndexMap from (List.mem_cons.mpr (Or.inl rfl)))]
    have hsi : (pairDims H W C N wf).siIdx (ix2 n f) ⟨List.idxOf (0 : Fin 3) (pairDims H W C N wf).startIndexMap,
        List.idxOf_lt_length_iff.2 (List.mem_cons.mpr (Or.inl rfl))⟩ = ix2 n (0 : Fin 2) := by
      funext b; refine Fin.ext ?_
      match b with
      | ⟨0, _⟩ => rfl
      | ⟨1, _⟩ => rfl
    rw [hsi]
    rfl
  | ⟨1, _⟩ =>
    show (pairDims H W C N wf).start (ix2 n f) idx 1 + (pairDims H W C N wf).batchCoord (ix2 n f) 1
      + (pairDims H W C N wf).offCoord (ix2 n f) 1 = _
    rw [GatherDims.batchCoord_eq_zero _ _ _ List.not_mem_nil,
      GatherDims.offCoord_eq_zero _ _ _ (fun h => ((GatherDims.mem_sKept _ _).mp h).1 (List.mem_cons.mpr (Or.inr (List.mem_cons.mpr (Or.inl rfl)))))]
    simp only [Nat.add_zero]
    unfold GatherDims.start
    rw [dif_pos (show (1 : Fin 3) ∈ (pairDims H W C N wf).startIndexMap from (List.mem_cons.mpr (Or.inr (List.mem_cons.mpr (Or.inl rfl)))))]
    have hsi : (pairDims H W C N wf).siIdx (ix2 n f) ⟨List.idxOf (1 : Fin 3) (pairDims H W C N wf).startIndexMap,
        List.idxOf_lt_length_iff.2 (List.mem_cons.mpr (Or.inr (List.mem_cons.mpr (Or.inl rfl))))⟩ = ix2 n (1 : Fin 2) := by
      funext b; refine Fin.ext ?_
      match b with
      | ⟨0, _⟩ => rfl
      | ⟨1, _⟩ => rfl
    rw [hsi]
    rfl
  | ⟨2, _⟩ =>
    show (pairDims H W C N wf).start (ix2 n f) idx 2 + (pairDims H W C N wf).batchCoord (ix2 n f) 2
      + (pairDims H W C N wf).offCoord (ix2 n f) 2 = _
    rw [GatherDims.batchCoord_eq_zero _ _ _ List.not_mem_nil]
    unfold GatherDims.start
    rw [dif_neg (show ¬ (2 : Fin 3) ∈ (pairDims H W C N wf).startIndexMap from
      fun h => absurd (show (2 : Fin 3) ∈ ([0, 1] : List (Fin 3)) from h) (by decide))]
    unfold GatherDims.offCoord
    rw [dif_pos (show (2 : Fin 3) ∈ (pairDims H W C N wf).sKept from
      (GatherDims.mem_sKept _ _).mpr
        ⟨fun h => absurd (show (2 : Fin 3) ∈ ([0, 1] : List (Fin 3)) from h) (by decide), List.not_mem_nil⟩)]
    simp only [Nat.zero_add]
    rfl

end Cert.GatherPair

end
-- ==== Proof.RefSample.lean ====
/-
  The reference program, read at one result element, is the bilinear sample of the table.

  The program takes the two coordinates of the `n`-th location, forms each one's cell word (`⌊·⌋` kept inside
  `[0, 510]`) and its upper neighbour (the cell word plus one), passes every index word through the negative-index
  wrap `select (w < 0) (w + 512) w` (which leaves a word between 0 and 511 unchanged), joins a row word and a column
  word into a start index, gathers the four corner rows of the table, and blends them with the weights `1 - offset`
  and `offset` along each axis. Each step is read here at the location `n` and the feature `f`; put together they are
  `Cert.Bilinear.G`, which is stated in the same arrangement.
-/
import proofs.«114739_j72816875536993_2_alg».proof.Proof.Gen.ReferenceIdeal.Read
import proofs.«114739_j72816875536993_2_alg».proof.Proof.Bilinear
import proofs.«114739_j72816875536993_2_alg».proof.Proof.LibIndexWords
import proofs.«114739_j72816875536993_2_alg».proof.Proof.LibGatherPair
import Idealize.ShloMosaic.Lib.ValueIdx
import Idealize.ShloMosaic.Lib.Pipeline.Value
import Idealize.ShloMosaic.PureOps.Ideal.Laws

noncomputable section

namespace Cert.ReferenceIdeal.RefSample

open Cert.ReferenceIdeal Cert.ReferenceIdeal.Gen Cert.ReferenceIdeal.Read Idealize.ShloMosaic Idealize.ShloMosaic.ValueIdx
open Cert.Bilinear Cert.IndexWords Cert.GatherPair

/-! ## Indices by their coordinates -/

/-- A rank-1 index is determined by its coordinate. -/
theorem idx1_eq {N : Nat} (j : (⟨1, ![N]⟩ : Shape).Idx) (n : Fin N) (h : (j 0).val = n.val) : j = ix1 n := by
  funext a; match a with | ⟨0, _⟩ => exact Fin.ext h

/-- A rank-2 index is determined by its two coordinates. -/
theorem idx2_eq {N M : Nat} (j : (⟨2, ![N, M]⟩ : Shape).Idx) (a : Fin N) (b : Fin M) (h0 : (j 0).val = a.val)
    (h1 : (j 1).val = b.val) : j = ix2 a b := by
  funext d; match d with | ⟨0, _⟩ => exact Fin.ext h0 | ⟨1, _⟩ => exact Fin.ext h1

/-! ## Index words between 0 and 511 -/

/-- The negative-index wrap leaves a small word unchanged, whatever would have been added. -/
theorem wrap_small (k : Nat) (hk : k < 2147483648) (c : BitVec 32) :
    Scalar.select (IntOp.cmpi .slt (BitVec.ofNat 32 k) 0#32) (IntOp.addi (BitVec.ofNat 32 k) c) (BitVec.ofNat 32 k)
      = BitVec.ofNat 32 k := by
  rw [not_neg_small k hk, select_zero]

/-- The cell word is the word of the cell's row. -/
theorem lo_word (x : EReal) : cell x = BitVec.ofNat 32 (lo x).val := by
  obtain ⟨k, hk, e⟩ := cell_small x
  show cell x = BitVec.ofNat 32 (cell x).toNat
  rw [e, toNat_small k (by omega)]

/-- The cell word plus one is the word of the upper neighbour's row. -/
theorem hi_word (x : EReal) : IntOp.addi (cell x) 1#32 = BitVec.ofNat 32 (hi x).val := by
  obtain ⟨k, hk, e⟩ := cell_small x
  show IntOp.addi (cell x) 1#32 = BitVec.ofNat 32 ((cell x).toNat + 1)
  rw [e, toNat_small k (by omega)]
  exact addi_small k 1

/-- The wrap leaves the cell word unchanged. -/
theorem wrap_lo (x : EReal) (c : BitVec 32) :
    Scalar.select (IntOp.cmpi .slt (cell x) 0#32) (IntOp.addi (cell x) c) (cell x) = BitVec.ofNat 32 (lo x).val := by
  rw [lo_word x]
  exact wrap_small _ (by have := (lo x).isLt; omega) c

/-- The wrap leaves the cell word plus one unchanged. -/
theorem wrap_hi (x : EReal) (c : BitVec 32) :
    Scalar.select (IntOp.cmpi .slt (IntOp.addi (cell x) 1#32) 0#32) (IntOp.addi (IntOp.addi (cell x) 1#32) c)
      (IntOp.addi (cell x) 1#32) = BitVec.ofNat 32 (hi x).val := by
  rw [hi_word x]
  exact wrap_small _ (by have := (hi x).isLt; omega) c

/-! ## The two coordinates, their cell words and their offsets, at location `n` -/

section AtLocation

variable (A : (⟨S512x512x4, .f32⟩ : BufTy).Contents (Elt Ideal)) (P : (⟨S8388608x2, .f32⟩ : BufTy).Contents (Elt Ideal))
  (n : Fin 8388608) (f : Fin 4)

/-- The first coordinate of location `n`. -/
theorem x_at : val_main_v1 (F := Ideal) P (ix1 n) = P (ix2 n (0 : Fin 2)) := by
  rw [val_main_v1_apply, val_main_v0_apply]
  exact congrArg P (idx2_eq _ n 0 (Nat.div_one _) rfl)

/-- The second coordinate of location `n`. -/
theorem y_at : val_main_v3 (F := Ideal) P (ix1 n) = P (ix2 n (1 : Fin 2)) := by
  rw [val_main_v3_apply, val_main_v2_apply]
  exact congrArg P (idx2_eq _ n 1 (Nat.div_one _) rfl)

/-- The clip bounds, converted from their integer constants. -/
theorem bound_lo : FloatOps.sitofp (F := Ideal) .f32 (0#32 : BitVec 32) = (0 : EReal) := by
  show (((0#32 : BitVec 32).toInt : ℝ) : EReal) = 0
  rw [show (0#32 : BitVec 32).toInt = 0 from by decide]
  norm_num
theorem bound_hi : FloatOps.sitofp (F := Ideal) .f32 (510#32 : BitVec 32) = ((510 : ℝ) : EReal) := by
  show (((510#32 : BitVec 32).toInt : ℝ) : EReal) = ((510 : ℝ) : EReal)
  rw [show (510#32 : BitVec 32).toInt = 510 from by decide]
  norm_num

/-- The first coordinate's cell word. -/
theorem word_x0 : val_main_v6 (F := Ideal) P (ix1 n) = cell (P (ix2 n (0 : Fin 2))) := by
  rw [val_main_v6_apply, val_main_v5_apply, val_main_call0_v4_apply, val_main_call0_v3_apply, val_main_c_0_apply,
    val_main_call0_v2_apply, val_main_call0_v1_apply, val_main_call0_v0_apply, val_main_c_apply, val_main_v4_apply,
    x_at, bound_lo, bound_hi]
  rfl

/-- The second coordinate's cell word. -/
theorem word_y0 : val_main_v9 (F := Ideal) P (ix1 n) = cell (P (ix2 n (1 : Fin 2))) := by
  rw [val_main_v9_apply, val_main_v8_apply, val_main_call1_v4_apply, val_main_call1_v3_apply, val_main_c_2_apply,
    val_main_call1_v2_apply, val_main_call1_v1_apply, val_main_call1_v0_apply, val_main_c_1_apply, val_main_v7_apply,
    y_at, bound_lo, bound_hi]
  rfl

/-- The upper neighbour of the first coordinate's cell, as a word. -/
theorem word_x1 : val_main_v11 (F := Ideal) P (ix1 n) = IntOp.addi (cell (P (ix2 n (0 : Fin 2)))) 1#32 := by
  rw [val_main_v11_apply, val_main_v10_apply, val_main_c_3_apply, word_x0]

/-- The upper neighbour of the second coordinate's cell, as a word. -/
theorem word_y1 : val_main_v13 (F := Ideal) P (ix1 n) = IntOp.addi (cell (P (ix2 n (1 : Fin 2)))) 1#32 := by
  rw [val_main_v13_apply, val_main_v12_apply, val_main_c_4_apply, word_y0]

/-- The first coordinate's offset inside its cell. -/
theorem fx_at : val_main_v16 (F := Ideal) P (ix2 n (0 : Fin 1)) = frac (P (ix2 n (0 : Fin 2))) := by
  rw [val_main_v16_apply, idx1_eq (idx_main_v16 (ix2 n (0 : Fin 1))) n rfl, val_main_v15_apply, x_at, val_main_v14_apply,
    word_x0]
  rfl

/-- The second coordinate's offset inside its cell. -/
theorem fy_at : val_main_v19 (F := Ideal) P (ix2 n (0 : Fin 1)) = frac (P (ix2 n (1 : Fin 2))) := by
  rw [val_main_v19_apply, idx1_eq (idx_main_v19 (ix2 n (0 : Fin 1))) n rfl, val_main_v18_apply, y_at, val_main_v17_apply,
    word_y0]
  rfl

/-! ## The index words after the wrap: the eight columns of the four start-index arrays -/

theorem col_v24 : val_main_v24 (F := Ideal) P (ix1 n) = BitVec.ofNat 32 (lo (P (ix2 n (0 : Fin 2)))).val := by
  rw [val_main_v24_apply, val_main_v21_apply, val_main_v23_apply, val_main_v20_apply, val_main_c_5_apply,
    val_main_v22_apply, val_main_c_6_apply, word_x0]
  exact wrap_lo _ _
theorem col_v29 : val_main_v29 (F := Ideal) P (ix1 n) = BitVec.ofNat 32 (lo (P (ix2 n (1 : Fin 2)))).val := by
  rw [val_main_v29_apply, val_main_v26_apply, val_main_v28_apply, val_main_v25_apply, val_main_c_7_apply,
    val_main_v27_apply, val_main_c_8_apply, word_y0]
  exact wrap_lo _ _
theorem col_v38 : val_main_v38 (F := Ideal) P (ix1 n) = BitVec.ofNat 32 (lo (P (ix2 n (0 : Fin 2)))).val := by
  rw [val_main_v38_apply, val_main_v35_apply, val_main_v37_apply, val_main_v34_apply, val_main_c_9_apply,
    val_main_v36_apply, val_main_c_10_apply, word_x0]
  exact wrap_lo _ _
theorem col_v43 : val_main_v43 (F := Ideal) P (ix1 n) = BitVec.ofNat 32 (hi (P (ix2 n (1 : Fin 2)))).val := by
  rw [val_main_v43_apply, val_main_v40_apply, val_main_v42_apply, val_main_v39_apply, val_main_c_11_apply,
    val_main_v41_apply, val_main_c_12_apply, word_y1]
  exact wrap_hi _ _
theorem col_v52 : val_main_v52 (F := Ideal) P (ix1 n) = BitVec.ofNat 32 (hi (P (ix2 n (0 : Fin 2)))).val := by
  rw [val_main_v52_apply, val_main_v49_apply, val_main_v51_apply, val_main_v48_apply, val_main_c_13_apply,
    val_main_v50_apply, val_main_c_14_apply, word_x1]
  exact wrap_hi _ _
theorem col_v57 : val_main_v57 (F := Ideal) P (ix1 n) = BitVec.ofNat 32 (lo (P (ix2 n (1 : Fin 2)))).val := by
  rw [val_main_v57_apply, val_main_v54_apply, val_main_v56_apply, val_main_v53_apply, val_main_c_15_apply,
    val_main_v55_apply, val_main_c_16_apply, word_y0]
  exact wrap_lo _ _
theorem col_v66 : val_main_v66 (F := Ideal) P (ix1 n) = BitVec.ofNat 32 (hi (P (ix2 n (0 : Fin 2)))).val := by
  rw [val_main_v66_apply, val_main_v63_apply, val_main_v65_apply, val_main_v62_apply, val_main_c_17_apply,
    val_main_v64_apply, val_main_c_18_apply, word_x1]
  exact wrap_hi _ _
theorem col_v71 : val_main_v71 (F := Ideal) P (ix1 n) = BitVec.ofNat 32 (hi (P (ix2 n (1 : Fin 2)))).val := by
  rw [val_main_v71_apply, val_main_v68_apply, val_main_v70_apply, val_main_v67_apply, val_main_c_19_apply,
    val_main_v69_apply, val_main_c_20_apply, word_y1]
  exact wrap_hi _ _

/-! ## The four corners -/

/-- The program's gather at `(n, f)`, when the start index `n` holds the words of a row `r` and a column `c`: the table
    at `(r, c, f)`. -/
theorem corner (idx : (⟨S8388608x2, .i32⟩ : BufTy).Contents (Elt Ideal)) (r c : Fin 512)
    (hr : idx (ix2 n (0 : Fin 2)) = BitVec.ofNat 32 r.val) (hc : idx (ix2 n (1 : Fin 2)) = BitVec.ofNat 32 c.val) :
    Host.gather gather_S512x512x4_S8388608x2_S8388608x4_1_01_n_n_01_1_114 A idx (ix2 n f) = A (ix3 r c f) := by
  refine (gather_pair_apply (H := 512) (W := 512) (C := 4) (N := 8388608) (by norm_num) (by norm_num) _ A idx n f).trans ?_
  congr 1
  funext a
  match a with
  | ⟨0, _⟩ =>
    refine Fin.ext ?_
    show min (idx (ix2 n (0 : Fin 2))).toInt.toNat (512 - 1) = r.val
    rw [hr, toInt_toNat_small _ (by have := r.isLt; omega)]
    have := r.isLt; omega
  | ⟨1, _⟩ =>
    refine Fin.ext ?_
    show min (idx (ix2 n (1 : Fin 2))).toInt.toNat (512 - 1) = c.val
    rw [hc, toInt_toNat_small _ (by have := c.isLt; omega)]
    have := c.isLt; omega
  | ⟨2, _⟩ => rfl

theorem f00_at : val_main_v33 (F := Ideal) A P (ix2 n f)
    = A (ix3 (lo (P (ix2 n (0 : Fin 2)))) (lo (P (ix2 n (1 : Fin 2)))) f) := by
  unfold val_main_v33
  refine corner A n f _ _ _ ?_ ?_
  · unfold val_main_v32
    rw [concat_cols_left, val_main_v30_apply, idx1_eq (idx_main_v30 (ix2 n (0 : Fin 1))) n rfl, col_v24]
  · unfold val_main_v32
    rw [concat_cols_right, val_main_v31_apply, idx1_eq (idx_main_v31 (ix2 n (0 : Fin 1))) n rfl, col_v29]

theorem f01_at : val_main_v47 (F := Ideal) A P (ix2 n f)
    = A (ix3 (lo (P (ix2 n (0 : Fin 2)))) (hi (P (ix2 n (1 : Fin 2)))) f) := by
  unfold val_main_v47
  refine corner A n f _ _ _ ?_ ?_
  · unfold val_main_v46
    rw [concat_cols_left, val_main_v44_apply, idx1_eq (idx_main_v44 (ix2 n (0 : Fin 1))) n rfl, col_v38]
  · unfold val_main_v46
    rw [concat_cols_right, val_main_v45_apply, idx1_eq (idx_main_v45 (ix2 n (0 : Fin 1))) n rfl, col_v43]

theorem f10_at : val_main_v61 (F := Ideal) A P (ix2 n f)
    = A (ix3 (hi (P (ix2 n (0 : Fin 2)))) (lo (P (ix2 n (1 : Fin 2)))) f) := by
  unfold val_main_v61
  refine corner A n f _ _ _ ?_ ?_
  · unfold val_main_v60
    rw [concat_cols_left, val_main_v58_apply, idx1_eq (idx_main_v58 (ix2 n (0 : Fin 1))) n rfl, col_v52]
  · unfold val_main_v60
    rw [concat_cols_right, val_main_v59_apply, idx1_eq (idx_main_v59 (ix2 n (0 : Fin 1))) n rfl, col_v57]

theorem f11_at : val_main_v75 (F := Ideal) A P (ix2 n f)
    = A (ix3 (hi (P (ix2 n (0 : Fin 2)))) (hi (P (ix2 n (1 : Fin 2)))) f) := by
  unfold val_main_v75
  refine corner A n f _ _ _ ?_ ?_
  · unfold val_main_v74
    rw [concat_cols_left, val_main_v72_apply, idx1_eq (idx_main_v72 (ix2 n (0 : Fin 1))) n rfl, col_v66]
  · unfold val_main_v74
    rw [concat_cols_right, val_main_v73_apply, idx1_eq (idx_main_v73 (ix2 n (0 : Fin 1))) n rfl, col_v71]

/-! ## The weights, spread along the features -/

/-- The constant `1.0`. -/
theorem one_eq : FloatOps.ofBits (F := Ideal) .f32 0x3F800000#32 = (1 : EReal) := by
  rw [Ideal.ofBits_def]
  simp [Ideal.ofBits, Ideal.ieee, -EReal.coe_mul]
  norm_num

theorem w78_at : val_main_v78 (F := Ideal) P (ix2 n f) = 1 - frac (P (ix2 n (0 : Fin 2))) := by
  rw [val_main_v78_apply, idx2_eq (idx_main_v78 (ix2 n f)) n (0 : Fin 1) rfl rfl, val_main_v77_apply, val_main_v76_apply,
    val_main_cst_apply, one_eq, fx_at]
  rfl
theorem w82_at : val_main_v82 (F := Ideal) P (ix2 n f) = 1 - frac (P (ix2 n (1 : Fin 2))) := by
  rw [val_main_v82_apply, idx2_eq (idx_main_v82 (ix2 n f)) n (0 : Fin 1) rfl rfl, val_main_v81_apply, val_main_v80_apply,
    val_main_cst_21_apply, one_eq, fy_at]
  rfl
theorem w86_at : val_main_v86 (F := Ideal) P (ix2 n f) = 1 - frac (P (ix2 n (0 : Fin 2))) := by
  rw [val_main_v86_apply, idx2_eq (idx_main_v86 (ix2 n f)) n (0 : Fin 1) rfl rfl, val_main_v85_apply, val_main_v84_apply,
    val_main_cst_22_apply, one_eq, fx_at]
  rfl
theorem w88_at : val_main_v88 (F := Ideal) P (ix2 n f) = frac (P (ix2 n (1 : Fin 2))) := by
  rw [val_main_v88_apply, idx2_eq (idx_main_v88 (ix2 n f)) n (0 : Fin 1) rfl rfl, fy_at]
theorem w91_at : val_main_v91 (F := Ideal) P (ix2 n f) = frac (P (ix2 n (0 : Fin 2))) := by
  rw [val_main_v91_apply, idx2_eq (idx_main_v91 (ix2 n f)) n (0 : Fin 1) rfl rfl, fx_at]
theorem w95_at : val_main_v95 (F := Ideal) P (ix2 n f) = 1 - frac (P (ix2 n (1 : Fin 2))) := by
  rw [val_main_v95_apply, idx2_eq (idx_main_v95 (ix2 n f)) n (0 : Fin 1) rfl rfl, val_main_v94_apply, val_main_v93_apply,
    val_main_cst_23_apply, one_eq, fy_at]
  rfl
theorem w98_at : val_main_v98 (F := Ideal) P (ix2 n f) = frac (P (ix2 n (0 : Fin 2))) := by
  rw [val_main_v98_apply, idx2_eq (idx_main_v98 (ix2 n f)) n (0 : Fin 1) rfl rfl, fx_at]
theorem w100_at : val_main_v100 (F := Ideal) P (ix2 n f) = frac (P (ix2 n (1 : Fin 2))) := by
  rw [val_main_v100_apply, idx2_eq (idx_main_v100 (ix2 n f)) n (0 : Fin 1) rfl rfl, fy_at]

/-- The result element `(n, f)`: the four corners, weighted. -/
theorem result_at : val_main_v102 (F := Ideal) A P (ix2 n f)
    = blend (fun h w => A (ix3 h w f)) (P (ix2 n (0 : Fin 2))) (P (ix2 n (1 : Fin 2))) := by
  rw [val_main_v102_apply, val_main_v97_apply, val_main_v90_apply, val_main_v83_apply, val_main_v79_apply,
    val_main_v89_apply, val_main_v87_apply, val_main_v96_apply, val_main_v92_apply, val_main_v101_apply,
    val_main_v99_apply, f00_at, f01_at, f10_at, f11_at, w78_at, w82_at, w86_at, w88_at, w91_at, w95_at, w98_at,
    w100_at]
  rfl

end AtLocation

/-- THE REFERENCE IS THE SAMPLE: the reference program's result is the table sampled bilinearly at every location. -/
theorem reference_is_sample (A : (⟨S512x512x4, .f32⟩ : BufTy).Contents (Elt Ideal))
    (P : (⟨S8388608x2, .f32⟩ : BufTy).Contents (Elt Ideal)) :
    Cert.ReferenceIdeal.Read.val_main_v102 (F := Ideal) A P = Cert.Bilinear.G A P := by
  funext i
  obtain ⟨n, f, rfl⟩ : ∃ (n : Fin 8388608) (f : Fin 4), i = ix2 n f := ⟨i 0, i 1, eq_ix2 i⟩
  exact result_at A P n f

end Cert.ReferenceIdeal.RefSample

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.FiniteInputs.lean ====
/-
  The finiteness test on the two inputs, read back: every entry of the table and of the locations is a real number.

  The test is the conjunction of two `jnp.all`s. Each one reduces, by `and` from the constant 1, the array of bits
  `|v| < +∞` taken entry by entry, where `|v|` is `max v (-v)` and `+∞` is the float word `0x7F800000`. The test being
  true, both reductions are 1; a reduction by `and` that is 1 met a 1 at every entry; and an extended real whose absolute
  value is below `+∞` is a real number.
-/
import proofs.«114739_j72816875536993_2_alg».proof.Proof.Gen.Pre_finite_inputs
import proofs.«114739_j72816875536993_2_alg».proof.Proof.LibFiniteEntry
import Idealize.ShloMosaic.Lib.ReduceAll
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- One entry's bit of the test, `|v| < +∞` with `+∞` spread over the array, being 1 makes the entry a real number. -/
theorem real_of_bit {s : Shape} (dims : Fin 0 → Fin s.rank) (hb : S_.BroadcastsInDim s dims) (V : FVec Ideal s .f32)
    (i : s.Idx)
    (e : cmpf .olt (Host.absf V) (broadcastInDim s dims hb (constant (F := Ideal) S_ .f32 0x7F800000#32)) i = 1#1) :
    ∃ r : ℝ, V i = (r : EReal) := by
  rw [cmpf_apply, broadcastInDim_apply _ hb _ i ix0 (fun a => a.elim0)] at e
  exact Cert.FiniteEntry.real_of_test (V i) e

/-- THE TEST READ BACK: if the finiteness test of the two inputs is true, every entry of both is a real number. -/
theorem entries_real (A : (⟨S512x512x4, .f32⟩ : BufTy).Contents (Elt Ideal))
    (P : (⟨S8388608x2, .f32⟩ : BufTy).Contents (Elt Ideal))
    (h : Cert.Pre_finite_inputs.fn (F := Ideal) A P = fun _ => 1#1) :
    (∀ i, ∃ r : ℝ, A i = (r : EReal)) ∧ (∀ i, ∃ r : ℝ, P i = (r : EReal)) := by
  have h0 := congrFun h ix0
  dsimp only [fn] at h0
  obtain ⟨hA, hP⟩ := IntOp.andi_eq_one.1 h0
  exact ⟨fun i => real_of_bit _ _ A i (Host.reduce_andi_all _ _ _ _ _ hA i),
    fun i => real_of_bit _ _ P i (Host.reduce_andi_all _ _ _ _ _ hP i)⟩

end Cert.FiniteInputs

end
-- ==== Proof.Claims.lean ====
/-
  The five claims.

  Both idealized programs compute, for every location `(x, y)` and feature `f`, the bilinear sample of the feature's
  table at `(x, y)`: the cell `(⌊x⌋, ⌊y⌋)` kept inside `[0, 510]²`, its four corners weighted by the offsets inside it.
  The reference fetches the four corners and adds the four weighted terms. The kernel builds, per location, a weight row
  along each axis — `1 - offset` at the cell, `offset` at its upper neighbour, zero elsewhere —, contracts the table with
  the row-direction weights as a matrix product, multiplies by the column-direction weights and sums along the lanes.
  Each contraction leaves two terms (a zero weight annihilates its term on the extended reals too), and the product of
  the two two-term sums is the four-term sum by distributivity — which holds because the precondition makes every
  table entry and every coordinate, hence every offset, a real number.
  The locations are processed 3072 at a time over 2731 grid points, the array padded with 1024 zero rows that the result
  drops; the table is handed to the kernel with its feature axis first. Neither changes any entry of the result.
  The idealization rewrote nothing in the kernel, so the kernel's idealization is its own text read on the extended reals.
-/
import proofs.«114739_j72816875536993_2_alg».proof.Defs
import proofs.«114739_j72816875536993_2_alg».proof.Proof.Gen.Kernel.Frame
import proofs.«114739_j72816875536993_2_alg».proof.Proof.Gen.ReferenceIdeal.Run
import proofs.«114739_j72816875536993_2_alg».proof.Proof.Gen.ReferenceIdeal.Read
import proofs.«114739_j72816875536993_2_alg».proof.Proof.KernelRun
import proofs.«114739_j72816875536993_2_alg».proof.Proof.RefSample
import proofs.«114739_j72816875536993_2_alg».proof.Proof.FiniteInputs

noncomputable section

namespace Cert.Proof.Claims

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories agreeing on the table and the locations, all of whose entries are real numbers, the kernel's result
    and the reference's are the bilinear samples `Cert.Bilinear.G` of the arguments: the kernel's double contraction by
    distributivity, the reference's four weighted corners as they stand. -/
theorem algebraic : Cert.algebraic_KernelIdeal_ReferenceIdeal := by
  intro m ρ m' ρ' hpre hagree
  refine ⟨fun c => Cert.Bilinear.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Whole.run m ρ)
    obtain ⟨hA, hP⟩ := Cert.FiniteInputs.entries_real _ _ (hpre c)
    exact Cert.KernelIdeal.Whole.contracted_eq_sample _ _ hA hP
  · refine (θ_run Cert.ReferenceIdeal.defs _ _).mono (fun _ h c => ⟨?_, (h c).2⟩)
      (Cert.ReferenceIdeal.Value.run (F := Ideal) m' ρ')
    rw [(h c).1, Cert.ReferenceIdeal.Read.val_main_v102_eq, Cert.ReferenceIdeal.RefSample.reference_is_sample,
      (hagree c).1, (hagree c).2]

end Cert.Proof.Claims

end
-- ==== Proof.lean ====
/-
  Bilinear sampling of a feature table: a kernel that gathers by contraction against one that gathers by index.

  For a table `[512, 512, 4]` and 8388608 locations, both programs return, per location and feature, the bilinear
  sample of the table at the location. Proof/Bilinear.lean states the sample and the whole result; Proof/OneHot.lean
  proves that contracting the table with the two weight rows of a location gives the four weighted corners when the
  entries are real; Proof/KernelWeights.lean, KernelPoint.lean, KernelArray.lean and KernelRun.lean read the kernel's
  run down to that double contraction, entry by entry; Proof/GatherPair.lean and RefSample.lean read the reference's run
  as the four weighted corners; Proof/FiniteInputs.lean reads the precondition as "every entry is a real number";
  Proof/Claims.lean joins them.
-/
import proofs.«114739_j72816875536993_2_alg».proof.Defs
import proofs.«114739_j72816875536993_2_alg».proof.Proof.Gen.Kernel
import proofs.«114739_j72816875536993_2_alg».proof.Proof.Gen.Kernel.Skeleton
import proofs.«114739_j72816875536993_2_alg».proof.Proof.Gen.Kernel.Launch
import proofs.«114739_j72816875536993_2_alg».proof.Proof.Gen.Kernel.Points
import proofs.«114739_j72816875536993_2_alg».proof.Proof.Gen.Kernel.Frame
import proofs.«114739_j72816875536993_2_alg».proof.Proof.Gen.KernelIdeal
import proofs.«114739_j72816875536993_2_alg».proof.Proof.Gen.KernelIdeal.Skeleton
import proofs.«114739_j72816875536993_2_alg».proof.Proof.Gen.KernelIdeal.Launch
import proofs.«114739_j72816875536993_2_alg».proof.Proof.Gen.KernelIdeal.Points
import proofs.«114739_j72816875536993_2_alg».proof.Proof.Gen.KernelIdeal.Frame
import proofs.«114739_j72816875536993_2_alg».proof.Proof.Gen.ReferenceIdeal
import proofs.«114739_j72816875536993_2_alg».proof.Proof.Gen.Pre_finite_inputs
import proofs.«114739_j72816875536993_2_alg».proof.Proof.Gen.ReferenceIdeal.Run
import proofs.«114739_j72816875536993_2_alg».proof.Proof.Gen.ReferenceIdeal.Read
import proofs.«114739_j72816875536993_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
